-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S16384 : Shape := ⟨1, ![16384]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S4096x256 .f32) (main_arg1 : FVec F S4096x4096 .f32) (main_arg2 : IVec S16384 32) (main_arg3 : IVec S16384 32) (main_arg4 : FVec F S256x256 .f32) (main_arg5 : FVec F S256x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S4096x256 : Shape := ⟨2, ![4096, 256]⟩
abbrev S4096x4096 : Shape := ⟨2, ![4096, 4096]⟩
abbrev S16384 : Shape := ⟨1, ![16384]⟩
abbrev S256x256 : Shape := ⟨2, ![256, 256]⟩
abbrev S2048x256 : Shape := ⟨2, ![2048, 256]⟩
abbrev S512x4096 : Shape := ⟨2, ![512, 4096]⟩
abbrev S512x256 : Shape := ⟨2, ![512, 256]⟩
abbrev S512 : Shape := ⟨1, ![512]⟩
abbrev S512x1 : Shape := ⟨2, ![512, 1]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x256 : Shape := ⟨2, ![16384, 256]⟩
abbrev S1x16384 : Shape := ⟨2, ![1, 16384]⟩
abbrev S1x2048 : Shape := ⟨2, ![1, 2048]⟩
abbrev S2048 : Shape := ⟨1, ![2048]⟩

abbrev nBuf : Space → Nat
  | .hbm => 57
  | .vmem => 22
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S16384, .i32⟩
  | .hbm, ⟨3, _⟩ => ⟨S16384, .i32⟩
  | .hbm, ⟨4, _⟩ => ⟨S256x256, .f32⟩
  | .hbm, ⟨5, _⟩ => ⟨S256x256, .f32⟩
  | .hbm, ⟨6, _⟩ => ⟨S4096x256, .bf16⟩
  | .hbm, ⟨7, _⟩ => ⟨S4096x256, .bf16⟩
  | .hbm, ⟨8, _⟩ => ⟨S4096x256, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S1, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S1x1, .i32⟩
  | .hbm, ⟨22, _⟩ => ⟨S16384x1, .i32⟩
  | .hbm, ⟨23, _⟩ => ⟨S16384x1, .i1⟩
  | .hbm, ⟨24, _⟩ => ⟨S16384x1, .i1⟩
  | .hbm, ⟨25, _⟩ => ⟨S_, .i1⟩
  | .hbm, ⟨26, _⟩ => ⟨S16384, .i1⟩
  | .hbm, ⟨27, _⟩ => ⟨S16384x256, .f32⟩
  | .hbm, ⟨28, _⟩ => ⟨S16384x256, .i1⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S1, .i32⟩
  | .hbm, ⟨41, _⟩ => ⟨S_, .i32⟩
  | .hbm, ⟨42, _⟩ => ⟨S16384x1, .i32⟩
  | .hbm, ⟨43, _⟩ => ⟨S16384x1, .i1⟩
  | .hbm, ⟨44, _⟩ => ⟨S1x1, .i32⟩
  | .hbm, ⟨45, _⟩ => ⟨S16384x1, .i32⟩
  | .hbm, ⟨46, _⟩ => ⟨S16384x1, .i1⟩
  | .hbm, ⟨47, _⟩ => ⟨S16384x1, .i1⟩
  | .hbm, ⟨48, _⟩ => ⟨S_, .i1⟩
  | .hbm, ⟨49, _⟩ => ⟨S16384, .i1⟩
  | .hbm, ⟨50, _⟩ => ⟨S16384x256, .f32⟩
  | .hbm, ⟨51, _⟩ => ⟨S16384x256, .i1⟩
  | .hbm, ⟨52, _⟩ => ⟨S_, .f32⟩
  | .hbm, ⟨53, _⟩ => ⟨S16384x256, .f32⟩
  | .hbm, ⟨54, _⟩ => ⟨S16384x256, .f32⟩
  | .hbm, ⟨55, _⟩ => ⟨S1x16384, .f32⟩
  | .hbm, ⟨56, _⟩ => ⟨S16384, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .bf16⟩
  | .local _ .vmem, ⟨4, _⟩ => ⟨S2048x256, .bf16⟩
  | .local _ .vmem, ⟨5, _⟩ => ⟨S512x4096, .f32⟩
  | .local _ .vmem, ⟨6, _⟩ => ⟨S512x4096, .f32⟩
  | .local _ .vmem, ⟨7, _⟩ => ⟨S4096x256, .bf16⟩
  | .local _ .vmem, ⟨8, _⟩ => ⟨S256x256, .f32⟩
  | .local _ .vmem, ⟨9, _⟩ => ⟨S512x256, .bf16⟩
  | .local _ .vmem, ⟨10, _⟩ => ⟨S512x256, .bf16⟩
  | .local _ .vmem, ⟨11, _⟩ => ⟨S512x4096, .f32⟩
  | .local _ .vmem, ⟨12, _⟩ => ⟨S512x4096, .f32⟩
  | .local _ .vmem, ⟨13, _⟩ => ⟨S4096x256, .bf16⟩
  | .local _ .vmem, ⟨14, _⟩ => ⟨S512x256, .f32⟩
  | .local _ .vmem, ⟨15, _⟩ => ⟨S512x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S1x2048, .f32⟩
  | .local _ .vmem, ⟨21, _⟩ => ⟨S1x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S2048x256_S2048x256_0_0 : (Rect.unit (s := S2048x256) ![0, 0] S2048x256.size inb_S2048x256_S2048x256_0_0).PackedRows (EltTy.packing .bf16)
  inb_S512x4096_S512x4096_0_0 : ∀ a, (![0, 0] : Fin 2 → Nat) a + S512x4096.size a ≤ S512x4096.size a
  h_S512x4096 : 0 < S512x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  reduces_S512x256_S512 : S512x256.Reduces [1] S512
  shapeCasts_S512_S512x1 : S512.ShapeCasts S512x1
  broadcasts_S512x1_S512x256 : S512x1.Broadcasts S512x256
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x256_0 : S16384.BroadcastsInDim S16384x256 (![0] : Fin 1 → Fin S16384x256.rank)
  bcast_S_S16384x256 : S_.BroadcastsInDim S16384x256 (![] : Fin 0 → Fin S16384x256.rank)
  shapeCasts_S2048x256_S2048x256 : S2048x256.ShapeCasts S2048x256
  reduces_S2048x256_S2048 : S2048x256.Reduces [1] S2048
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x16384_S16384 : S1x16384.ShapeCasts S16384
  dot_S2048x256_S256x256_S2048x256_1_0_0_1_n_n_wf : DotDims.WF S2048x256 S256x256 S2048x256 [1] [0] [0] [1] [] []
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  gather_S4096x256_S16384x1_S16384x256_1_0_n_n_0_1_1256_wf : GatherDims.WF S4096x256 S16384x1 S16384x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .f32 = 32 ∨ (Rect.block (s := S4096x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S4096x256.size a
  hwx0_2 : ∀ i : grid0.Coords, EltTy.bits .bf16 = 32 ∨ (Rect.block (s := S4096x256) S2048x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x256.size a
  hwx1_3 : ∀ i : grid1.Coords, EltTy.bits .bf16 = 32 ∨ (Rect.block (s := S4096x256) S512x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .bf16 = 32 ∨ (Rect.block (s := S4096x256) S4096x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S4096x256.size a
  hwx2_2 : ∀ i : grid2.Coords, EltTy.bits .f32 = 32 ∨ (Rect.block (s := S4096x256) S512x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S16384x256.size a
  hwx3_0 : ∀ i : grid3.Coords, EltTy.bits .f32 = 32 ∨ (Rect.block (s := S16384x256) S2048x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S16384x256.size a
  hwx3_1 : ∀ i : grid3.Coords, EltTy.bits .f32 = 32 ∨ (Rect.block (s := S16384x256) S2048x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x16384.size a
  hwx3_2 : ∀ i : grid3.Coords, EltTy.bits .f32 = 32 ∨ (Rect.block (s := S1x16384) S1x2048.size (cc3_transform_2 i) (hinb3_2 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def gather_S4096x256_S16384x1_S16384x256_1_0_n_n_0_1_1256 : GatherDims S4096x256 S16384x1 S16384x256 where
  offsetDims := [1]
  collapsedSliceDims := [0]
  operandBatchingDims := []
  startIndicesBatchingDims := []
  startIndexMap := [0]
  indexVectorDim := 1
  sliceSizes := ![1, 256]
  wf := gather_S4096x256_S16384x1_S16384x256_1_0_n_n_0_1_1256_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S512x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v3) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S16384 : Shape := ⟨1, ![16384]⟩
abbrev S256x256 : Shape := ⟨2, ![256, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x256 : Shape := ⟨2, ![16384, 256]⟩
abbrev S1x16384 : Shape := ⟨2, ![1, 16384]⟩
abbrev S128x256 : Shape := ⟨2, ![128, 256]⟩
abbrev S1x128 : Shape := ⟨2, ![1, 128]⟩
abbrev S128 : Shape := ⟨1, ![128]⟩

abbrev nBuf : Space → Nat
  | .hbm => 57
  | .vmem => 22
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S16384, .i32⟩
  | .hbm, ⟨3, _⟩ => ⟨S16384, .i32⟩
  | .hbm, ⟨4, _⟩ => ⟨S256x256, .f32⟩
  | .hbm, ⟨5, _⟩ => ⟨S256x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S1, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S1x1, .i32⟩
  | .hbm, ⟨22, _⟩ => ⟨S16384x1, .i32⟩
  | .hbm, ⟨23, _⟩ => ⟨S16384x1, .i1⟩
  | .hbm, ⟨24, _⟩ => ⟨S16384x1, .i1⟩
  | .hbm, ⟨25, _⟩ => ⟨S_, .i1⟩
  | .hbm, ⟨26, _⟩ => ⟨S16384, .i1⟩
  | .hbm, ⟨27, _⟩ => ⟨S16384x256, .f32⟩
  | .hbm, ⟨28, _⟩ => ⟨S16384x256, .i1⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S_, .i32⟩
  | .hbm, ⟨33, _⟩ => ⟨S16384, .i32⟩
  | .hbm, ⟨34, _⟩ => ⟨S16384, .i1⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384, .i32⟩
  | .hbm, ⟨39, _⟩ => ⟨S16384x1, .i32⟩
  | .hbm, ⟨40, _⟩ => ⟨S1, .i32⟩
  | .hbm, ⟨41, _⟩ => ⟨S_, .i32⟩
  | .hbm, ⟨42, _⟩ => ⟨S16384x1, .i32⟩
  | .hbm, ⟨43, _⟩ => ⟨S16384x1, .i1⟩
  | .hbm, ⟨44, _⟩ => ⟨S1x1, .i32⟩
  | .hbm, ⟨45, _⟩ => ⟨S16384x1, .i32⟩
  | .hbm, ⟨46, _⟩ => ⟨S16384x1, .i1⟩
  | .hbm, ⟨47, _⟩ => ⟨S16384x1, .i1⟩
  | .hbm, ⟨48, _⟩ => ⟨S_, .i1⟩
  | .hbm, ⟨49, _⟩ => ⟨S16384, .i1⟩
  | .hbm, ⟨50, _⟩ => ⟨S16384x256, .f32⟩
  | .hbm, ⟨51, _⟩ => ⟨S16384x256, .i1⟩
  | .hbm, ⟨52, _⟩ => ⟨S_, .f32⟩
  | .hbm, ⟨53, _⟩ => ⟨S16384x256, .f32⟩
  | .hbm, ⟨54, _⟩ => ⟨S16384x256, .f32⟩
  | .hbm, ⟨55, _⟩ => ⟨S1x16384, .f32⟩
  | .hbm, ⟨56, _⟩ => ⟨S16384, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S512x256, .f32⟩
  | .local _ .vmem, ⟨4, _⟩ => ⟨S512x256, .f32⟩
  | .local _ .vmem, ⟨5, _⟩ => ⟨S512x512, .f32⟩
  | .local _ .vmem, ⟨6, _⟩ => ⟨S512x512, .f32⟩
  | .local _ .vmem, ⟨7, _⟩ => ⟨S4096x256, .f32⟩
  | .local _ .vmem, ⟨8, _⟩ => ⟨S256x256, .f32⟩
  | .local _ .vmem, ⟨9, _⟩ => ⟨S512x256, .f32⟩
  | .local _ .vmem, ⟨10, _⟩ => ⟨S512x256, .f32⟩
  | .local _ .vmem, ⟨11, _⟩ => ⟨S512x512, .f32⟩
  | .local _ .vmem, ⟨12, _⟩ => ⟨S512x512, .f32⟩
  | .local _ .vmem, ⟨13, _⟩ => ⟨S4096x256, .f32⟩
  | .local _ .vmem, ⟨14, _⟩ => ⟨S512x256, .f32⟩
  | .local _ .vmem, ⟨15, _⟩ => ⟨S512x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S1x128, .f32⟩
  | .local _ .vmem, ⟨21, _⟩ => ⟨S1x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def k2_mult1 (i : grid2.Coords) : BitVec 32 :=
  let arg1 : BitVec 32 := BitVec.ofNat 32 (i 1).val
  let c512_i32 : BitVec 32 := 512#32
  let v3 : BitVec 32 := Scalar.muli arg1 c512_i32
  v3
def k2_off1 (i : grid2.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S4096x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S128x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S512x256_S512x256_0_0 : ∀ a, (![0, 0] : Fin 2 → Nat) a + S512x256.size a ≤ S512x256.size a
  h_S512x256 : 0 < S512x256.numel
  h_S256x256 : 0 < S256x256.numel
  shapeCasts_S512x256_S512x256 : S512x256.ShapeCasts S512x256
  inb_S512x512_S512x512_0_0 : ∀ a, (![0, 0] : Fin 2 → Nat) a + S512x512.size a ≤ S512x512.size a
  h_S512x512 : 0 < S512x512.numel
  inb_S256x256_S256x256_0_0 : ∀ a, (![0, 0] : Fin 2 → Nat) a + S256x256.size a ≤ S256x256.size a
  reduces_S512x256_S512 : S512x256.Reduces [1] S512
  shapeCasts_S512_S512x1 : S512.ShapeCasts S512x1
  broadcasts_S512x1_S512x256 : S512x1.Broadcasts S512x256
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x256_0 : S16384.BroadcastsInDim S16384x256 (![0] : Fin 1 → Fin S16384x256.rank)
  bcast_S_S16384x256 : S_.BroadcastsInDim S16384x256 (![] : Fin 0 → Fin S16384x256.rank)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  reduces_S128x256_S128 : S128x256.Reduces [1] S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x16384_S16384 : S1x16384.ShapeCasts S16384
  dot_S512x256_S256x256_S512x256_1_0_0_1_n_n_wf : DotDims.WF S512x256 S256x256 S512x256 [1] [0] [0] [1] [] []
  dot_S512x512_S512x256_S512x256_1_0_0_1_n_n_wf : DotDims.WF S512x512 S512x256 S512x256 [1] [0] [0] [1] [] []
  gather_S4096x256_S16384x1_S16384x256_1_0_n_n_0_1_1256_wf : GatherDims.WF S4096x256 S16384x1 S16384x256 [1] [0] [] [0] [] 1 ![1, 256]
  hrank0 : 0 < grid0.rank
  k0_mult1_dvd : ∀ i : grid0.Coords, 256 ∣ (k0_mult1 i).toNat
  k0_off1_inb : ∀ i : grid0.Coords, ∀ a, (k0_off1 i) a + S256x256.size a ≤ S256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .f32 = 32 ∨ (Rect.block (s := S4096x256) S512x256.size (cc0_transform_2 i) (hinb0_2 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x256.size a ≤ S4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .f32 = 32 ∨ (Rect.block (s := S4096x4096) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S4096x256.size a
  hwx1_3 : ∀ i : grid1.Coords, EltTy.bits .f32 = 32 ∨ (Rect.block (s := S4096x256) S512x256.size (cc1_transform_3 i) (hinb1_3 i)).WholeWords (EltTy.packing .f32)
  hrank2 : 0 < grid2.rank
  k2_mult1_dvd : ∀ i : grid2.Coords, 512 ∣ (k2_mult1 i).toNat
  k2_off1_inb : ∀ i : grid2.Coords, ∀ a, (k2_off1 i) a + S512x256.size a ≤ S4096x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x4096.size a
  hwx2_0 : ∀ i : grid2.Coords, EltTy.bits .f32 = 32 ∨ (Rect.block (s := S4096x4096) S512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .f32 = 32 ∨ (Rect.block (s := S4096x256) S4096x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S4096x256.size a
  hwx2_2 : ∀ i : grid2.Coords, EltTy.bits .f32 = 32 ∨ (Rect.block (s := S4096x256) S512x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x256.size a ≤ S16384x256.size a
  hwx3_0 : ∀ i : grid3.Coords, EltTy.bits .f32 = 32 ∨ (Rect.block (s := S16384x256) S128x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S16384x256.size a
  hwx3_1 : ∀ i : grid3.Coords, EltTy.bits .f32 = 32 ∨ (Rect.block (s := S16384x256) S128x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x16384.size a
  hwx3_2 : ∀ i : grid3.Coords, EltTy.bits .f32 = 32 ∨ (Rect.block (s := S1x16384) S1x128.size (cc3_transform_2 i) (hinb3_2 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def gather_S4096x256_S16384x1_S16384x256_1_0_n_n_0_1_1256 : GatherDims S4096x256 S16384x1 S16384x256 where
  offsetDims := [1]
  collapsedSliceDims := [0]
  operandBatchingDims := []
  startIndicesBatchingDims := []
  startIndexMap := [0]
  indexVectorDim := 1
  sliceSizes := ![1, 256]
  wf := gather_S4096x256_S16384x1_S16384x256_1_0_n_n_0_1_1256_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S512x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v3) S128x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S128x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== Proof.GcnSpec.lean ====
/-
  The link predictor as whole-array formulas on the extended reals, index by index.

  With X : [4096, 256], A : [4096, 4096], W₁ W₂ : [256, 256]:
    xw X W₁          (i, j) = ∑ l < 256,  X (i, l) · W₁ (l, j)
    aggr A H         (i, j) = ∑ k < 4096, A (i, k) · H (k, j)
    hidden A H W₂    (i, j) = ∑ l < 256,  max (aggr A H (i, l)) z · W₂ (l, j)
    unitRows ε G     (i, j) = G (i, j) · rsqrt (max (∑ l < 256, G (i, l) · G (i, l)) ε)
    cosHalf o h S D  (0, e) = ((∑ l < 256, S (e, l) · D (e, l)) + o) · h
  The scalars z, ε, o, h stay parameters: both programs pass the same bit patterns for them.

  The second half is the one law the two programs differ by: a sum over 4096 taken in 8 consecutive runs of 512
  is the sum over 4096 (addition on the extended reals is a commutative monoid, so no finiteness is needed).
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

abbrev Nodes : Shape := ⟨2, ![4096, 256]⟩
abbrev Adj : Shape := ⟨2, ![4096, 4096]⟩
abbrev Wts : Shape := ⟨2, ![256, 256]⟩
abbrev Edges : Shape := ⟨2, ![16384, 256]⟩
abbrev Scores : Shape := ⟨2, ![1, 16384]⟩

/-- X · W₁. -/
def xw (x : Nodes.Idx → EReal) (w : Wts.Idx → EReal) : Nodes.Idx → EReal :=
  fun i => ∑ l : Fin 256, x (ix2 (i 0) l) * w (ix2 l (i 1))

/-- A · H: every node's row gathers its neighbours' rows. -/
def aggr (a : Adj.Idx → EReal) (h : Nodes.Idx → EReal) : Nodes.Idx → EReal :=
  fun i => ∑ k : Fin 4096, a (ix2 (i 0) k) * h (ix2 k (i 1))

/-- max (A · H) z · W₂, with z the rectifier's threshold. -/
def hidden (z : EReal) (a : Adj.Idx → EReal) (h : Nodes.Idx → EReal) (w : Wts.Idx → EReal) : Nodes.Idx → EReal :=
  fun i => ∑ l : Fin 256, max (aggr a h (ix2 (i 0) l)) z * w (ix2 l (i 1))

/-- Each row scaled by the reciprocal square root of its squared length, clamped below at ε. -/
def unitRows (ε : EReal) (g : Nodes.Idx → EReal) : Nodes.Idx → EReal :=
  fun i => g i * FloatOps.rsqrt (F := Ideal) (φ := .f32) (max (∑ l : Fin 256, g (ix2 (i 0) l) * g (ix2 (i 0) l)) ε)

/-- (⟨S e, D e⟩ + o) · h for every edge e, laid out as one row. -/
def cosHalf (o h : EReal) (s d : Edges.Idx → EReal) : Scores.Idx → EReal :=
  fun i => ((∑ l : Fin 256, s (ix2 (i 1) l) * d (ix2 (i 1) l)) + o) * h

/-! ## A sum over 4096 in eight runs of 512 -/

/-- Position `j` of run `b`. -/
def runIdx (b : Fin 8) (j : Fin 512) : Fin 4096 := ⟨512 * b.val + j.val, by have := b.isLt; have := j.isLt; omega⟩

theorem sum_runs {M : Type*} [AddCommMonoid M] (f : Fin 4096 → M) :
    ∑ b : Fin 8, ∑ j : Fin 512, f (runIdx b j) = ∑ k : Fin 4096, f k := by
  rw [← Finset.sum_product', Finset.univ_product_univ]
  refine Fintype.sum_equiv (finProdFinEquiv (m := 8) (n := 512) |>.trans (finCongr (by norm_num))) _ _ ?_
  rintro ⟨b, j⟩
  refine congrArg f (Fin.ext ?_)
  simp [runIdx, finProdFinEquiv]
  omega

/-- The first `n` runs, as a partial sum: what an accumulator holds after `n` steps from zero. -/
theorem sum_runs_succ {M : Type*} [AddCommMonoid M] (g : Fin 8 → M) (n : ℕ) (hn : n < 8) :
    (∑ b ∈ Finset.univ.filter (fun b : Fin 8 => b.val < n + 1), g b)
      = (∑ b ∈ Finset.univ.filter (fun b : Fin 8 => b.val < n), g b) + g ⟨n, hn⟩ := by
  have : Finset.univ.filter (fun b : Fin 8 => b.val < n + 1)
      = insert (⟨n, hn⟩ : Fin 8) (Finset.univ.filter (fun b : Fin 8 => b.val < n)) := by
    ext b; simp only [Finset.mem_filter, Finset.mem_univ, true_and, Finset.mem_insert, Fin.ext_iff]; omega
  rw [this, Finset.sum_insert (by simp), add_comm]

end Cert.Gcn

end
-- ==== Proof.KXw.lean ====
import proofs.«141059_g2000705357074448_pallasbulk_1090_2_alg».proof.Proof.Gen.KernelIdeal.Frame
import proofs.«141059_g2000705357074448_pallasbulk_1090_2_alg».proof.Proof.GcnSpec
import Idealize.ShloMosaic.Lib.Pipeline.Value

set_option maxRecDepth 16384

noncomputable section

/-!
  Region 0 of the kernel: X · W₁, two row blocks of 2048.

  At a grid point t the body loads rows [2048 t, 2048 t + 2048) of X and the whole of W₁, and stores their product
  into the same rows of the output; the contraction runs over all 256 columns at once. So entry (r, j) of block t
  depends on row 2048 t + r of X and column j of W₁ only, and is entry (2048 t + r, j) of X · W₁. The two blocks
  tile the 4096 rows, hence the array ends as X · W₁.
-/

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Xw

/-! ## The block product at an index -/

/-- The contraction of this region's product: 2048×256 by 256×256 over the shared axis of 256. -/
abbrev Dxw : DotDims S2048x256 S256x256 S2048x256 := dot_S2048x256_S256x256_S2048x256_1_0_0_1_n_n

/-- Position l of the contraction reads the left factor at (p, l) … -/
theorem xw_lhs (p : Fin 2048) (q : Fin 256) (l : Fin 256) :
    Dxw.lhsIdx (ix2 p q) ((contrEquiv1 Dxw 256 rfl rfl).symm l) = ix2 p l := by
  funext a; apply Fin.ext
  match a with
  | ⟨0, _⟩ => simp [DotDims.lhsIdx, Dxw, dot_S2048x256_S256x256_S2048x256_1_0_0_1_n_n]; rfl
  | ⟨1, _⟩ =>
    refine (DotDims.lhsIdx_val_of_single Dxw (cl := 1) rfl (ix2 p q) _).trans ?_
    exact contrEquiv1_symm_val Dxw 256 rfl rfl l

/-- … and the right factor at (l, q). -/
theorem xw_rhs (p : Fin 2048) (q : Fin 256) (l : Fin 256) :
    Dxw.rhsIdx (ix2 p q) ((contrEquiv1 Dxw 256 rfl rfl).symm l) = ix2 l q := by
  funext a; apply Fin.ext
  match a with
  | ⟨0, _⟩ =>
    refine (DotDims.rhsIdx_val_of_single Dxw (cr := 0) rfl (ix2 p q) _).trans ?_
    exact contrEquiv1_symm_val Dxw 256 rfl rfl l
  | ⟨1, _⟩ => simp [DotDims.rhsIdx, Dxw, dot_S2048x256_S256x256_S2048x256_1_0_0_1_n_n]; rfl

/-- The stored block at (p, q): row p of the loaded rows of X against column q of W₁. The changes of float format
    are the identity on the extended reals and the product starts from the zero accumulator. -/
theorem pay_xw (x0 : Vec Ideal S2048x256 .f32) (x1 : Vec Ideal S256x256 .f32) (p : Fin 2048) (q : Fin 256) :
    k0_pay1 (F := Ideal) x0 x1 (ix2 p q) = ∑ l : Fin 256, x0 (ix2 p l) * x1 (ix2 l q) := by
  unfold k0_pay1
  show FloatOps.matmul Dxw none (truncf (F := Ideal) .bf16 x0 bitsLt_bf16_f32) (truncf (F := Ideal) .bf16 x1 bitsLt_bf16_f32)
    (constant (F := Ideal) S2048x256 .f32 0x00000000#32) (ix2 p q) = _
  rw [Ideal.matmul_constant_zero_apply, ← Equiv.sum_comp (contrEquiv1 Dxw 256 rfl rfl).symm]
  refine Finset.sum_congr rfl fun l _ => ?_
  rw [xw_lhs, xw_rhs]
  rfl

/-- If row p of the loaded rows is row `i 0` of X and column q of the loaded weights is column `i 1` of W₁, the stored
    block at (p, q) is (X · W₁) at i. -/
theorem blk_xw (X : Cert.Gcn.Nodes.Idx → EReal) (W : Cert.Gcn.Wts.Idx → EReal)
    (x0 : Vec Ideal S2048x256 .f32) (x1 : Vec Ideal S256x256 .f32) (p : Fin 2048) (q : Fin 256) (i : Cert.Gcn.Nodes.Idx)
    (h0 : ∀ l : Fin 256, x0 (ix2 p l) = X (ix2 (i 0) l)) (h1 : ∀ l : Fin 256, x1 (ix2 l q) = W (ix2 l (i 1))) :
    k0_pay1 (F := Ideal) x0 x1 (ix2 p q) = Cert.Gcn.xw X W i := by
  rw [pay_xw]
  unfold Cert.Gcn.xw
  exact Finset.sum_congr rfl fun l _ => by rw [h0, h1]

/-! ## From the blocks to the array -/

theorem zero_offsets : (![0, 0] : Fin 2 → Nat) = fun _ => 0 := funext fun a => by fin_cases a <;> rfl

/-- The block index maps over the two grid points: the rows of X move with the output's rows, the weights stay,
    and the output's row block is the point itself (at most 1), its column block 0. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 1 :=
  (by decide +kernel : ∀ t : Fin grid0.N, _)

/-- Each of the two row blocks is some point's. -/
theorem block_onto : ∀ b : Fin 2, ∃ t : Fin cfg0.N, win0_2.index t = ![b.val, 0] :=
  (by decide +kernel : ∀ b : Fin 2, ∃ t : Fin grid0.N, win0_2.index t = ![b.val, 0])

/-- What point t writes back is block t of X · W₁. -/
theorem flushed_xw (c : Dev nD) (t : Fin cfg0.N) :
    (dat0 (F := Ideal) V c).flushed 2 t
      = ((cfg0.win 2).blk t).view.read (Elt Ideal) (Cert.Gcn.xw (V c main_arg0) (V c main_arg4)) := by
  show (cfg0.win 2).cut (grid0.coords t) ((dat0 (F := Ideal) V c).after 2 t) = _
  rw [after0_2]
  unfold out0_2
  rw [View.canon_unit_zero zero_offsets]
  simp only [View.ld_unit_zero (S := S2048x256) zero_offsets, View.ld_unit_zero (S := S256x256) zero_offsets]
  obtain ⟨e0, e1, e2, e3, e4, e5⟩ := block_indices t
  funext j
  show k0_pay1 (F := Ideal) (iblk0 V c 0 t) (iblk0 V c 1 t) j
    = Cert.Gcn.xw (V c main_arg0) (V c main_arg4) (((cfg0.win 2).blk t).view.emb j)
  refine (congrArg (k0_pay1 (F := Ideal) (iblk0 V c 0 t) (iblk0 V c 1 t)) (eq_ix2 j)).trans ?_
  refine blk_xw (V c main_arg0) (V c main_arg4) (iblk0 V c 0 t) (iblk0 V c 1 t) (j 0) (j 1)
    (((cfg0.win 2).blk t).view.emb j) ?_ ?_
  · intro l
    show V c main_arg0 (((cfg0.win 0).blk t).view.emb (ix2 (j 0) l))
      = V c main_arg0 (ix2 ((((cfg0.win 2).blk t).view.emb j) 0) l)
    refine congrArg (V c main_arg0) (funext fun a => Fin.ext ?_)
    match a with
    | ⟨0, _⟩ =>
      show win0_0.index t (0 : Fin 2) * 2048 + 1 * (j 0).val = win0_2.index t (0 : Fin 2) * 2048 + 1 * (j 0).val
      omega
    | ⟨1, _⟩ =>
      show win0_0.index t (1 : Fin 2) * 256 + 1 * l.val = l.val
      omega
  · intro l
    show V c main_arg4 (((cfg0.win 1).blk t).view.emb (ix2 l (j 1)))
      = V c main_arg4 (ix2 l ((((cfg0.win 2).blk t).view.emb j) 1))
    refine congrArg (V c main_arg4) (funext fun a => Fin.ext ?_)
    match a with
    | ⟨0, _⟩ =>
      show win0_1.index t (0 : Fin 2) * 256 + 1 * l.val = l.val
      omega
    | ⟨1, _⟩ =>
      show win0_1.index t (1 : Fin 2) * 256 + 1 * (j 1).val = win0_2.index t (1 : Fin 2) * 256 + 1 * (j 1).val
      omega

/-- An index of the array lies in point t's block iff each coordinate lies in the block's range on its axis. -/
theorem mem_block (t : Fin cfg0.N) (i : S4096x256.Idx) :
    i ∈ ((cfg0.win 2).blk t).view.set
      ↔ ∀ a : Fin 2, win0_2.index t a * S2048x256.size a ≤ (i a).val
          ∧ (i a).val < win0_2.index t a * S2048x256.size a + S2048x256.size a := by
  show i ∈ ((View.whole main_v0).slice (win0_2.rect t)).set ↔ _
  rw [View.set_slice_whole, Rect.mem_set_unit]
  exact Iff.rfl

/-- Row r lies in the block of point r / 2048: the two blocks tile the rows. -/
theorem rows_covered (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  obtain ⟨t, ht⟩ := block_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 256 ≤ (i 1).val ∧ (i 1).val < win0_2.index t (1 : Fin 2) * 256 + 256
    omega

end Xw

/-- After the region the output array is X · W₁. -/
theorem xw_final (c : Dev nD) :
    (Gen.dat0 (F := Ideal) V c).arrAt 2 cfg0.N = Cert.Gcn.xw (V c main_arg0) (V c main_arg4) :=
  (dat0 (F := Ideal) V c).arrAt_eq_of_cover 2 (Cert.Gcn.xw (V c main_arg0) (V c main_arg4))
    (fun t _ => Xw.flushed_xw V c t) Xw.rows_covered

end Cert.KernelIdeal.Val

end
-- ==== Proof.KHidden.lean ====
import proofs.«141059_g2000705357074448_pallasbulk_1090_2_alg».proof.Proof.Gen.KernelIdeal.Frame
import proofs.«141059_g2000705357074448_pallasbulk_1090_2_alg».proof.Proof.GcnSpec
import Idealize.ShloMosaic.Lib.Pipeline.Value

set_option maxRecDepth 16384

noncomputable section

/-!
  Region 1 of the kernel: max(A · H, 0) · W₂, eight row blocks of 512.

  At a grid point t the body loads rows [512 t, 512 t + 512) of A, the whole of H and the whole of W₂; it contracts
  the rows of A against H over all 4096 nodes at once, clamps below at zero, and multiplies by W₂. So entry (r, j) of
  block t depends on row 512 t + r of A, on all of H and on column j of W₂, and is entry (512 t + r, j) of
  max(A · H, 0) · W₂. The eight blocks tile the 4096 rows.
-/

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Hidden

/-! ## The two products at an index -/

/-- The aggregation's contraction: 512×4096 by 4096×256 over the 4096 nodes. -/
abbrev Dagg : DotDims S512x4096 S4096x256 S512x256 := dot_S512x4096_S4096x256_S512x256_1_0_0_1_n_n
/-- The weights' contraction: 512×256 by 256×256 over the 256 features. -/
abbrev Dwt : DotDims S512x256 S256x256 S512x256 := dot_S512x256_S256x256_S512x256_1_0_0_1_n_n

theorem agg_lhs (p : Fin 512) (q : Fin 256) (k : Fin 4096) :
    Dagg.lhsIdx (ix2 p q) ((contrEquiv1 Dagg 4096 rfl rfl).symm k) = ix2 p k := by
  funext a; apply Fin.ext
  match a with
  | ⟨0, _⟩ => simp [DotDims.lhsIdx, Dagg, dot_S512x4096_S4096x256_S512x256_1_0_0_1_n_n]; rfl
  | ⟨1, _⟩ =>
    refine (DotDims.lhsIdx_val_of_single Dagg (cl := 1) rfl (ix2 p q) _).trans ?_
    exact contrEquiv1_symm_val Dagg 4096 rfl rfl k

theorem agg_rhs (p : Fin 512) (q : Fin 256) (k : Fin 4096) :
    Dagg.rhsIdx (ix2 p q) ((contrEquiv1 Dagg 4096 rfl rfl).symm k) = ix2 k q := by
  funext a; apply Fin.ext
  match a with
  | ⟨0, _⟩ =>
    refine (DotDims.rhsIdx_val_of_single Dagg (cr := 0) rfl (ix2 p q) _).trans ?_
    exact contrEquiv1_symm_val Dagg 4096 rfl rfl k
  | ⟨1, _⟩ => simp [DotDims.rhsIdx, Dagg, dot_S512x4096_S4096x256_S512x256_1_0_0_1_n_n]; rfl

theorem wt_lhs (p : Fin 512) (q : Fin 256) (l : Fin 256) :
    Dwt.lhsIdx (ix2 p q) ((contrEquiv1 Dwt 256 rfl rfl).symm l) = ix2 p l := by
  funext a; apply Fin.ext
  match a with
  | ⟨0, _⟩ => simp [DotDims.lhsIdx, Dwt, dot_S512x256_S256x256_S512x256_1_0_0_1_n_n]; rfl
  | ⟨1, _⟩ =>
    refine (DotDims.lhsIdx_val_of_single Dwt (cl := 1) rfl (ix2 p q) _).trans ?_
    exact contrEquiv1_symm_val Dwt 256 rfl rfl l

theorem wt_rhs (p : Fin 512) (q : Fin 256) (l : Fin 256) :
    Dwt.rhsIdx (ix2 p q) ((contrEquiv1 Dwt 256 rfl rfl).symm l) = ix2 l q := by
  funext a; apply Fin.ext
  match a with
  | ⟨0, _⟩ =>
    refine (DotDims.rhsIdx_val_of_single Dwt (cr := 0) rfl (ix2 p q) _).trans ?_
    exact contrEquiv1_symm_val Dwt 256 rfl rfl l
  | ⟨1, _⟩ => simp [DotDims.rhsIdx, Dwt, dot_S512x256_S256x256_S512x256_1_0_0_1_n_n]; rfl

/-- A product into the zero accumulator over the 4096 nodes, at (p, q). -/
theorem agg_apply (a : FVec Ideal S512x4096 .bf16) (h : FVec Ideal S4096x256 .bf16) (p : Fin 512) (q : Fin 256) :
    FloatOps.matmul Dagg none a h (constant (F := Ideal) S512x256 .f32 0x00000000#32) (ix2 p q)
      = ∑ k : Fin 4096, a (ix2 p k) * h (ix2 k q) := by
  rw [Ideal.matmul_constant_zero_apply, ← Equiv.sum_comp (contrEquiv1 Dagg 4096 rfl rfl).symm]
  exact Finset.sum_congr rfl fun k _ => by rw [agg_lhs, agg_rhs]

/-- A product into the zero accumulator over the 256 features, at (p, q). -/
theorem wt_apply (a : FVec Ideal S512x256 .bf16) (w : FVec Ideal S256x256 .f32) (p : Fin 512) (q : Fin 256) :
    FloatOps.matmul Dwt none a w (constant (F := Ideal) S512x256 .f32 0x00000000#32) (ix2 p q)
      = ∑ l : Fin 256, a (ix2 p l) * w (ix2 l q) := by
  rw [Ideal.matmul_constant_zero_apply, ← Equiv.sum_comp (contrEquiv1 Dwt 256 rfl rfl).symm]
  exact Finset.sum_congr rfl fun l _ => by rw [wt_lhs, wt_rhs]

/-- The stored block at (p, q): row p of the loaded rows of A against H, clamped below at zero, against column q of
    W₂. The changes of float format and the same-shape cast are the identity. -/
theorem pay_hidden (x0 : Vec Ideal S512x4096 .f32) (x1 : Vec Ideal S4096x256 .bf16) (x2 : Vec Ideal S256x256 .f32)
    (p : Fin 512) (q : Fin 256) :
    k1_pay1 (F := Ideal) x0 x1 x2 (ix2 p q)
      = ∑ l : Fin 256, max (∑ k : Fin 4096, x0 (ix2 p k) * x1 (ix2 k l)) (Ideal.ofBits .f32 0x00000000#32) * x2 (ix2 l q) := by
  unfold k1_pay1
  show FloatOps.matmul (φ₂ := .f32) Dwt none
      (truncf (F := Ideal) .bf16
        (maximumf (F := Ideal)
          (FloatOps.matmul (φ₂ := .bf16) Dagg none (truncf (F := Ideal) .bf16 x0 bitsLt_bf16_f32)
            (shapeCast S4096x256 x1 shapeCasts_S4096x256_S4096x256) (constant (F := Ideal) S512x256 .f32 0x00000000#32))
          (broadcast S512x256 (Scalar.ofBits (F := Ideal) .f32 0x00000000#32))) bitsLt_bf16_f32)
      x2 (constant (F := Ideal) S512x256 .f32 0x00000000#32) (ix2 p q) = _
  rw [wt_apply]
  refine Finset.sum_congr rfl fun l _ => ?_
  show max (FloatOps.matmul (φ₂ := .bf16) Dagg none (truncf (F := Ideal) .bf16 x0 bitsLt_bf16_f32)
      (shapeCast S4096x256 x1 shapeCasts_S4096x256_S4096x256) (constant (F := Ideal) S512x256 .f32 0x00000000#32) (ix2 p l))
      (Ideal.ofBits .f32 0x00000000#32) * x2 (ix2 l q) = _
  rw [agg_apply, shapeCast_self]
  rfl

/-- If row p of the loaded rows is row `i 0` of A, the loaded H is all of H, and column q of the loaded weights is
    column `i 1` of W₂, the stored block at (p, q) is (max(A · H, 0) · W₂) at i. -/
theorem blk_hidden (A : Cert.Gcn.Adj.Idx → EReal) (H : Cert.Gcn.Nodes.Idx → EReal) (W : Cert.Gcn.Wts.Idx → EReal)
    (x0 : Vec Ideal S512x4096 .f32) (x1 : Vec Ideal S4096x256 .bf16) (x2 : Vec Ideal S256x256 .f32)
    (p : Fin 512) (q : Fin 256) (i : Cert.Gcn.Nodes.Idx)
    (h0 : ∀ k : Fin 4096, x0 (ix2 p k) = A (ix2 (i 0) k))
    (h1 : ∀ (k : Fin 4096) (l : Fin 256), x1 (ix2 k l) = H (ix2 k l))
    (h2 : ∀ l : Fin 256, x2 (ix2 l q) = W (ix2 l (i 1))) :
    k1_pay1 (F := Ideal) x0 x1 x2 (ix2 p q)
      = Cert.Gcn.hidden (Ideal.ofBits .f32 0x00000000#32) A H W i := by
  rw [pay_hidden]
  unfold Cert.Gcn.hidden Cert.Gcn.aggr
  refine Finset.sum_congr rfl fun l _ => ?_
  rw [h2]
  congr 2
  exact Finset.sum_congr rfl fun k _ => by rw [h0, h1]

/-! ## From the blocks to the array -/

theorem zero_offsets : (![0, 0] : Fin 2 → Nat) = fun _ => 0 := funext fun a => by fin_cases a <;> rfl

/-- The block index maps over the eight grid points: the rows of A move with the output's rows, H and W₂ stay,
    and the output's row block is the point itself (at most 7), its column block 0. -/
theorem block_indices : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 7 :=
  (by decide +kernel : ∀ t : Fin grid1.N, _)

/-- Each of the eight row blocks is some point's. -/
theorem block_onto : ∀ b : Fin 8, ∃ t : Fin cfg1.N, win1_3.index t = ![b.val, 0] :=
  (by decide +kernel : ∀ b : Fin 8, ∃ t : Fin grid1.N, win1_3.index t = ![b.val, 0])

/-- What point t writes back is block t of max(A · H, 0) · W₂. -/
theorem flushed_hidden (c : Dev nD) (t : Fin cfg1.N) :
    (dat1 (F := Ideal) V c).flushed 3 t
      = ((cfg1.win 3).blk t).view.read (Elt Ideal)
          (Cert.Gcn.hidden (Ideal.ofBits .f32 0x00000000#32) (V c main_arg1) (V c main_v0) (V c main_arg5)) := by
  show (cfg1.win 3).cut (grid1.coords t) ((dat1 (F := Ideal) V c).after 3 t) = _
  rw [after1_3]
  unfold out1_3
  rw [View.canon_unit_zero zero_offsets]
  simp only [View.ld_unit_zero (S := S512x4096) zero_offsets, View.ld_unit_zero (S := S4096x256) zero_offsets,
    View.ld_unit_zero (S := S256x256) zero_offsets]
  obtain ⟨e0, e1, e2, e3, e4, e5, e6, e7⟩ := block_indices t
  funext j
  show k1_pay1 (F := Ideal) (iblk1 V c 0 t) (iblk1 V c 1 t) (iblk1 V c 2 t) j
    = Cert.Gcn.hidden (Ideal.ofBits .f32 0x00000000#32) (V c main_arg1) (V c main_v0) (V c main_arg5)
        (((cfg1.win 3).blk t).view.emb j)
  refine (congrArg (k1_pay1 (F := Ideal) (iblk1 V c 0 t) (iblk1 V c 1 t) (iblk1 V c 2 t)) (eq_ix2 j)).trans ?_
  refine blk_hidden (V c main_arg1) (V c main_v0) (V c main_arg5) (iblk1 V c 0 t) (iblk1 V c 1 t) (iblk1 V c 2 t)
    (j 0) (j 1) (((cfg1.win 3).blk t).view.emb j) ?_ ?_ ?_
  · intro k
    show V c main_arg1 (((cfg1.win 0).blk t).view.emb (ix2 (j 0) k))
      = V c main_arg1 (ix2 ((((cfg1.win 3).blk t).view.emb j) 0) k)
    refine congrArg (V c main_arg1) (funext fun a => Fin.ext ?_)
    match a with
    | ⟨0, _⟩ =>
      show win1_0.index t (0 : Fin 2) * 512 + 1 * (j 0).val = win1_3.index t (0 : Fin 2) * 512 + 1 * (j 0).val
      omega
    | ⟨1, _⟩ =>
      show win1_0.index t (1 : Fin 2) * 4096 + 1 * k.val = k.val
      omega
  · intro k l
    show V c main_v0 (((cfg1.win 1).blk t).view.emb (ix2 k l)) = V c main_v0 (ix2 k l)
    refine congrArg (V c main_v0) (funext fun a => Fin.ext ?_)
    match a with
    | ⟨0, _⟩ =>
      show win1_1.index t (0 : Fin 2) * 4096 + 1 * k.val = k.val
      omega
    | ⟨1, _⟩ =>
      show win1_1.index t (1 : Fin 2) * 256 + 1 * l.val = l.val
      omega
  · intro l
    show V c main_arg5 (((cfg1.win 2).blk t).view.emb (ix2 l (j 1)))
      = V c main_arg5 (ix2 l ((((cfg1.win 3).blk t).view.emb j) 1))
    refine congrArg (V c main_arg5) (funext fun a => Fin.ext ?_)
    match a with
    | ⟨0, _⟩ =>
      show win1_2.index t (0 : Fin 2) * 256 + 1 * l.val = l.val
      omega
    | ⟨1, _⟩ =>
      show win1_2.index t (1 : Fin 2) * 256 + 1 * (j 1).val = win1_3.index t (1 : Fin 2) * 256 + 1 * (j 1).val
      omega

/-- An index of the array lies in point t's block iff each coordinate lies in the block's range on its axis. -/
theorem mem_block (t : Fin cfg1.N) (i : S4096x256.Idx) :
    i ∈ ((cfg1.win 3).blk t).view.set
      ↔ ∀ a : Fin 2, win1_3.index t a * S512x256.size a ≤ (i a).val
          ∧ (i a).val < win1_3.index t a * S512x256.size a + S512x256.size a := by
  show i ∈ ((View.whole main_v1).slice (win1_3.rect t)).set ↔ _
  rw [View.set_slice_whole, Rect.mem_set_unit]
  exact Iff.rfl

/-- Row r lies in the block of point r / 512: the eight blocks tile the rows. -/
theorem rows_covered (i : S4096x256.Idx) :
    ∃ t : Fin cfg1.N, (cfg1.win 3).flush t = true ∧ i ∈ ((cfg1.win 3).blk t).view.set := by
  have hi0 : (i 0).val < 4096 := (i 0).isLt
  have hi1 : (i 1).val < 256 := (i 1).isLt
  obtain ⟨t, ht⟩ := block_onto ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_block]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 256 ≤ (i 1).val ∧ (i 1).val < win1_3.index t (1 : Fin 2) * 256 + 256
    omega

end Hidden

/-- After the region the output array is max(A · H, 0) · W₂. -/
theorem hidden_final (c : Dev nD) :
    (Gen.dat1 (F := Ideal) V c).arrAt 3 cfg1.N
      = Cert.Gcn.hidden (Ideal.ofBits .f32 0x00000000#32) (V c main_arg1) (V c main_v0) (V c main_arg5) :=
  (dat1 (F := Ideal) V c).arrAt_eq_of_cover 3
    (Cert.Gcn.hidden (Ideal.ofBits .f32 0x00000000#32) (V c main_arg1) (V c main_v0) (V c main_arg5))
    (fun t _ => Hidden.flushed_hidden V c t) Hidden.rows_covered

end Cert.KernelIdeal.Val

end
-- ==== Proof.KUnit.lean ====
/-
  The third region of the kernel, read as a whole-array formula: with G = A · H (every node's row gathers its
  neighbours' rows of H), each row of G is scaled by the reciprocal square root of its squared length clamped below:
  (i, j) ↦ G (i, j) · rsqrt (max (∑ l < 256, G (i, l)²) ε).
  A grid point takes 512 rows of A and all of H; the eight points tile the 4096 rows.
-/
import proofs.«141059_g2000705357074448_pallasbulk_1090_2_alg».proof.Proof.Gen.KernelIdeal.Frame
import proofs.«141059_g2000705357074448_pallasbulk_1090_2_alg».proof.Proof.GcnSpec
import Idealize.ShloMosaic.Lib.Pipeline.Value

set_option maxRecDepth 16384

noncomputable section

namespace Cert.KernelIdeal.Val.Unit

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

/-! ## One block of rows

A block of 512 rows of the result is computed from the 512 rows of A beside it and the whole of H: the product of
the two, then per row the lane sum of its squares, the clamp, the reciprocal square root, and the rescaling. -/

/-- The product of a [512, 4096] block of A with H at (r, j): the sum over the 4096 contracted positions. -/
theorem aggr_block_apply (a : FVec Ideal S512x4096 .bf16) (h : FVec Ideal S4096x256 .bf16) (r : Fin 512) (j : Fin 256) :
    matmul (F := Ideal) dot_S512x4096_S4096x256_S512x256_1_0_0_1_n_n none a h (constant S512x256 .f32 0x00000000#32) (ix2 r j)
      = ∑ k : Fin 4096, a (ix2 r k) * h (ix2 k j) := by
  refine (Ideal.matmul_constant_zero_apply dot_S512x4096_S4096x256_S512x256_1_0_0_1_n_n none a h (ix2 r j)).trans ?_
  rw [← Equiv.sum_comp (contrEquiv1 dot_S512x4096_S4096x256_S512x256_1_0_0_1_n_n 4096 rfl rfl).symm]
  refine Finset.sum_congr rfl fun k _ => ?_
  have c2 := contrEquiv1_symm_val dot_S512x4096_S4096x256_S512x256_1_0_0_1_n_n 4096 rfl rfl k
  have l2 : dot_S512x4096_S4096x256_S512x256_1_0_0_1_n_n.lhsIdx (ix2 r j) ((contrEquiv1 _ 4096 rfl rfl).symm k) = ix2 r k := by
    funext ax; apply Fin.ext
    match ax with
    | ⟨0, _⟩ => rfl
    | ⟨1, _⟩ => exact (DotDims.lhsIdx_val_of_single _ rfl (ix2 r j) _).trans c2
  have r2 : dot_S512x4096_S4096x256_S512x256_1_0_0_1_n_n.rhsIdx (ix2 r j) ((contrEquiv1 _ 4096 rfl rfl).symm k) = ix2 k j := by
    funext ax; apply Fin.ext
    match ax with
    | ⟨0, _⟩ => exact (DotDims.rhsIdx_val_of_single _ rfl (ix2 r j) _).trans c2
    | ⟨1, _⟩ => rfl
  rw [l2, r2]

/-- The lane sum of a [512, 256] block at row `r` is the sum over that row's 256 entries. -/
theorem laneSum_apply (x : FVec Ideal S512x256 .f32) (h : S512x256.Reduces [1] S512) (hφ : FKind.Formats .f32)
    (hacc : (0x00000000#32 : BitVec 32) = 0x00000000#32) (r : Fin 512) :
    multiReduction (F := Ideal) .add [1] S512 x 0x00000000#32 h hφ hacc (ix1 r) = ∑ l : Fin 256, x (ix2 r l) := by
  refine (Ideal.multiReduction_add_single x 0x00000000#32 h hφ hacc (ix1 r)).trans ?_
  refine Finset.sum_congr rfl fun l _ => congrArg x ?_
  funext a; apply Fin.ext
  match a with
  | ⟨0, _⟩ => rfl
  | ⟨1, _⟩ => rfl

/-- A vector of 512 entries laid out as one column: entry (r, 0) of the column is entry r of the vector. -/
theorem colCast_apply (v : S512.Idx → EReal) (h : S512.ShapeCasts S512x1) (r : Fin 512) (z : Fin 1) :
    shapeCast S512x1 v h (ix2 r z) = v (ix1 r) := by
  refine shapeCast_apply v h (ix2 r z) (ix1 r) ?_
  rw [Shape.rowMajor_val_one, Shape.rowMajor_val_two]
  show r.val = r.val * 1 + z.val
  have := z.isLt; omega

/-- A column spread over 256 lanes: entry (r, j) is the column's entry (r, 0). -/
theorem colSpread_apply (v : S512x1.Idx → EReal) (h : S512x1.Broadcasts S512x256) (r : Fin 512) (j : Fin 256) :
    broadcastTo S512x256 v h (ix2 r j) = v (ix2 r (0 : Fin 1)) := by
  refine broadcastTo_apply v h (ix2 r j) (ix2 r (0 : Fin 1)) fun a => ?_
  match a with
  | ⟨0, _⟩ => rfl
  | ⟨1, _⟩ => rfl

/-- The rescaling of a block g: g (r, j) · rsqrt (max (∑ l, g (r, l)²) ε). -/
theorem unit_tail (g : FVec Ideal S512x256 .f32) (h1 : S512x256.Reduces [1] S512) (hφ : FKind.Formats .f32)
    (hacc : (0x00000000#32 : BitVec 32) = 0x00000000#32) (h2 : S512.ShapeCasts S512x1) (h3 : S512x1.Broadcasts S512x256)
    (ε : Ideal .f32) (r : Fin 512) (j : Fin 256) :
    mulf (F := Ideal) g (broadcastTo S512x256 (rsqrt (F := Ideal) (maximumf (F := Ideal) (shapeCast S512x1 (multiReduction (F := Ideal) .add [1] S512 (mulf (F := Ideal) g g) 0x00000000#32 h1 hφ hacc) h2) (broadcast S512x1 ε))) h3) (ix2 r j)
      = g (ix2 r j) * FloatOps.rsqrt (F := Ideal) (φ := .f32) (max (∑ l : Fin 256, g (ix2 r l) * g (ix2 r l)) ε) := by
  show g (ix2 r j) * broadcastTo S512x256 _ h3 (ix2 r j) = _
  rw [colSpread_apply]
  show g (ix2 r j) * FloatOps.rsqrt (F := Ideal) (φ := .f32) (max (shapeCast S512x1 _ h2 (ix2 r (0 : Fin 1))) ε) = _
  rw [colCast_apply, laneSum_apply]
  rfl

/-- The stored block at (r, j). -/
theorem unit_block (x0 : Vec Ideal S512x4096 .f32) (x1 : Vec Ideal S4096x256 .bf16) (r : Fin 512) (j : Fin 256) :
    k2_pay1 (F := Ideal) x0 x1 (ix2 r j)
      = (∑ k : Fin 4096, x0 (ix2 r k) * x1 (ix2 k j))
        * FloatOps.rsqrt (F := Ideal) (φ := .f32) (max (∑ l : Fin 256, (∑ k : Fin 4096, x0 (ix2 r k) * x1 (ix2 k l)) * (∑ k : Fin 4096, x0 (ix2 r k) * x1 (ix2 k l))) (Ideal.ofBits .f32 0x24E69595#32)) := by
  unfold k2_pay1
  refine (unit_tail _ _ _ _ _ _ _ r j).trans ?_
  simp only [aggr_block_apply, shapeCast_self]
  rfl

/-- The same against the whole arrays: when the first block is rows b·512 … b·512 + 511 of A and the second is H, the
    stored block at y is the rescaled row b·512 + y₀ of A · H at column y₁. -/
theorem unit_point (A : Cert.Gcn.Adj.Idx → EReal) (H : Cert.Gcn.Nodes.Idx → EReal)
    (x0 : Vec Ideal S512x4096 .f32) (x1 : Vec Ideal S4096x256 .bf16) (b : Nat)
    (hx0 : ∀ (r : Fin 512) (k : Fin 4096) (n : Fin 4096), n.val = b * 512 + r.val → x0 (ix2 r k) = A (ix2 n k))
    (hx1 : ∀ (k : Fin 4096) (j : Fin 256), x1 (ix2 k j) = H (ix2 k j))
    (y : S512x256.Idx) (i : Cert.Gcn.Nodes.Idx) (hi0 : (i 0).val = b * 512 + (y 0).val) (hi1 : (i 1).val = (y 1).val) :
    k2_pay1 (F := Ideal) x0 x1 y
      = Cert.Gcn.unitRows (Ideal.ofBits .f32 0x24E69595#32) (Cert.Gcn.aggr A H) i := by
  obtain ⟨r, j, rfl⟩ : ∃ (r : Fin 512) (j : Fin 256), y = ix2 r j := ⟨y 0, y 1, eq_ix2 y⟩
  obtain ⟨n, m, rfl⟩ : ∃ (n : Fin 4096) (m : Fin 256), i = ix2 n m := ⟨i 0, i 1, eq_ix2 i⟩
  have hn : n.val = b * 512 + r.val := hi0
  obtain rfl : m = j := Fin.ext hi1
  have h0 : ∀ k, x0 (ix2 r k) = A (ix2 n k) := fun k => hx0 r k n hn
  rw [unit_block]
  simp only [h0, hx1]
  rfl

/-! ## From blocks to the array

Grid point t handles rows 512·t … 512·t + 511: it reads those rows of A and all of H and writes those rows of the
result. The eight points cover all 4096 rows. -/

theorem zeroOffsets : (![0, 0] : Fin 2 → Nat) = fun _ => 0 := funext fun a => by fin_cases a <;> rfl

/-- Where the three windows sit at point t: the block of A and the result's block at block row t, column block 0;
    H whole. -/
theorem unit_blocks_at : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 7 :=
  (by decide +kernel : ∀ t : Fin grid2.N, _)

/-- Every block of rows of the result is some point's. -/
theorem unit_block_onto : ∀ q : Fin 8, ∃ t : Fin cfg2.N, win2_2.index t = ![q.val, 0] :=
  (by decide +kernel : ∀ q : Fin 8, ∃ t : Fin grid2.N, win2_2.index t = ![q.val, 0])

variable (V : (c : Dev nD) → (b : Ref sig .tc) → Buf (Elt Ideal) ((c : Thread nD τ).loc b))

/-- What point t writes back is block t of the rescaled A · H. -/
theorem unit_flushed (c : Dev nD) (t : Fin cfg2.N) :
    (Gen.dat2 (F := Ideal) V c).flushed 2 t = ((cfg2.win 2).blk t).view.read (Elt Ideal)
      (Cert.Gcn.unitRows (Ideal.ofBits .f32 0x24E69595#32) (Cert.Gcn.aggr (V c main_arg1) (V c main_v1))) := by
  show (cfg2.win 2).cut (grid2.coords t) ((Gen.dat2 (F := Ideal) V c).after 2 t) = _
  rw [after2_2]
  unfold out2_2
  rw [View.canon_unit_zero zeroOffsets]
  simp only [View.ld_unit_zero (S := S512x4096) zeroOffsets, View.ld_unit_zero (S := S4096x256) zeroOffsets]
  obtain ⟨e0, e1, e2, e3, e4, e5⟩ := unit_blocks_at t
  funext y
  refine unit_point (V c main_arg1) (V c main_v1) (iblk2 V c 0 t) (iblk2 V c 1 t) (win2_2.index t (0 : Fin 2)) ?_ ?_ y
    (((cfg2.win 2).blk t).view.emb y) ?_ ?_
  · intro r k n hn
    show V c main_arg1 (((cfg2.win 0).blk t).view.emb (ix2 r k)) = V c main_arg1 (ix2 n k)
    refine congrArg (V c main_arg1) (funext fun a => Fin.ext ?_)
    match a with
    | ⟨0, _⟩ => show win2_0.index t (0 : Fin 2) * 512 + 1 * r.val = n.val; omega
    | ⟨1, _⟩ => show win2_0.index t (1 : Fin 2) * 4096 + 1 * k.val = k.val; omega
  · intro k j
    show V c main_v1 (((cfg2.win 1).blk t).view.emb (ix2 k j)) = V c main_v1 (ix2 k j)
    refine congrArg (V c main_v1) (funext fun a => Fin.ext ?_)
    match a with
    | ⟨0, _⟩ => show win2_1.index t (0 : Fin 2) * 4096 + 1 * k.val = k.val; omega
    | ⟨1, _⟩ => show win2_1.index t (1 : Fin 2) * 256 + 1 * j.val = j.val; omega
  · show win2_2.index t (0 : Fin 2) * 512 + 1 * (y 0).val = win2_2.index t (0 : Fin 2) * 512 + (y 0).val
    omega
  · show win2_2.index t (1 : Fin 2) * 256 + 1 * (y 1).val = (y 1).val
    omega

/-- An index of the result is in point t's block iff each coordinate is in the block's range on its axis. -/
theorem unit_mem_blk (t : Fin cfg2.N) (i : S4096x256.Idx) :
    i ∈ ((cfg2.win 2).blk t).view.set ↔ ∀ a : Fin 2, win2_2.index t a * S512x256.size a ≤ (i a).val ∧ (i a).val < win2_2.index t a * S512x256.size a + S512x256.size a := by
  show i ∈ ((View.whole main_v2).slice (win2_2.rect t)).set ↔ _
  rw [View.set_slice_whole, Rect.mem_set_unit]
  exact Iff.rfl

/-- Row n is written by the point whose block is n / 512. -/
theorem unit_cover (i : S4096x256.Idx) :
    ∃ t : Fin cfg2.N, (cfg2.win 2).flush t = true ∧ i ∈ ((cfg2.win 2).blk t).view.set := by
  have hi0 : (i 0).val < 4096 := (i 0).isLt
  have hi1 : (i 1).val < 256 := (i 1).isLt
  obtain ⟨t, ht⟩ := unit_block_onto ⟨(i 0).val / 512, by omega⟩
  have q0 : win2_2.index t (0 : Fin 2) = (i 0).val / 512 := congrFun ht 0
  have q1 : win2_2.index t (1 : Fin 2) = 0 := congrFun ht 1
  refine ⟨t, flush2_2 t, ?_⟩
  rw [unit_mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 256 ≤ (i 1).val ∧ (i 1).val < win2_2.index t (1 : Fin 2) * 256 + 256; omega

end Cert.KernelIdeal.Val.Unit

namespace Cert.KernelIdeal.Val

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The array after the region: every row of A · H scaled to unit length (with the clamp). -/
theorem unit_final (c : Dev nD) : (Gen.dat2 (F := Ideal) V c).arrAt 2 cfg2.N = Cert.Gcn.unitRows (Ideal.ofBits .f32 0x24E69595#32) (Cert.Gcn.aggr (V c main_arg1) (V c main_v1)) :=
  (Gen.dat2 (F := Ideal) V c).arrAt_eq_of_cover 2 _ (fun t _ => Unit.unit_flushed V c t) Unit.unit_cover

end Cert.KernelIdeal.Val

end
-- ==== Proof.KCos.lean ====
/-
  The fourth region of the kernel, read as a whole-array formula: for every edge e the score row holds
  ((∑ l < 256, S (e, l) · D (e, l)) + 1) · ½, where S and D are the gathered source and destination rows.
  A grid point takes 2048 edges at a time; the eight points tile the 16384 edges.
-/
import proofs.«141059_g2000705357074448_pallasbulk_1090_2_alg».proof.Proof.Gen.KernelIdeal.Frame
import proofs.«141059_g2000705357074448_pallasbulk_1090_2_alg».proof.Proof.GcnSpec
import Idealize.ShloMosaic.Lib.Pipeline.Value

set_option maxRecDepth 16384

noncomputable section

namespace Cert.KernelIdeal.Val.Cos

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

/-! ## One block of scores

A block of the score row is computed from the two blocks of 2048 edge rows beside it: the products of a row of the
first with the same row of the second are summed over the 256 lanes, one is added, and the result is halved. -/

/-- The lane sum of a [2048, 256] block at row `e` is the sum over that row's 256 entries. -/
theorem laneSum_apply (x : FVec Ideal S2048x256 .f32) (h : S2048x256.Reduces [1] S2048) (hφ : FKind.Formats .f32)
    (hacc : (0x00000000#32 : BitVec 32) = 0x00000000#32) (e : Fin 2048) :
    multiReduction (F := Ideal) .add [1] S2048 x 0x00000000#32 h hφ hacc (ix1 e) = ∑ l : Fin 256, x (ix2 e l) := by
  refine (Ideal.multiReduction_add_single x 0x00000000#32 h hφ hacc (ix1 e)).trans ?_
  refine Finset.sum_congr rfl fun l _ => congrArg x ?_
  funext a; apply Fin.ext
  match a with
  | ⟨0, _⟩ => rfl
  | ⟨1, _⟩ => rfl

/-- A vector of 2048 entries laid out as one row: entry (0, e) of the row is entry e of the vector. -/
theorem rowCast_apply (v : S2048.Idx → EReal) (h : S2048.ShapeCasts S1x2048) (q : Fin 1) (e : Fin 2048) :
    shapeCast S1x2048 v h (ix2 q e) = v (ix1 e) := by
  refine shapeCast_apply v h (ix2 q e) (ix1 e) ?_
  rw [Shape.rowMajor_val_one, Shape.rowMajor_val_two]
  show e.val = q.val * 2048 + e.val
  have := q.isLt; omega

/-- The stored block at (0, e): (⟨x0 e, x1 e⟩ + 1) · ½. -/
theorem cos_block (x0 x1 : Vec Ideal S2048x256 .f32) (q : Fin 1) (e : Fin 2048) :
    k3_pay1 (F := Ideal) x0 x1 (ix2 q e)
      = ((∑ l : Fin 256, x0 (ix2 e l) * x1 (ix2 e l)) + Ideal.ofBits .f32 0x3F800000#32) * Ideal.ofBits .f32 0x3F000000#32 := by
  unfold k3_pay1
  refine (rowCast_apply _ _ q e).trans ?_
  show (multiReduction (F := Ideal) .add [1] S2048 _ 0x00000000#32 _ _ _ (ix1 e) + _) * _ = _
  rw [laneSum_apply]
  simp only [shapeCast_self]
  rfl

/-- The same against the whole arrays: when the two blocks are rows b·2048 … b·2048 + 2047 of S and D, the stored block
    at y is the score of edge b·2048 + y₁. -/
theorem cos_point (s d : Cert.Gcn.Edges.Idx → EReal) (x0 x1 : Vec Ideal S2048x256 .f32) (b : Nat)
    (hx0 : ∀ (e : Fin 2048) (l : Fin 256) (k : Fin 16384), k.val = b * 2048 + e.val → x0 (ix2 e l) = s (ix2 k l))
    (hx1 : ∀ (e : Fin 2048) (l : Fin 256) (k : Fin 16384), k.val = b * 2048 + e.val → x1 (ix2 e l) = d (ix2 k l))
    (y : S1x2048.Idx) (i : Cert.Gcn.Scores.Idx) (hi : (i 1).val = b * 2048 + (y 1).val) :
    k3_pay1 (F := Ideal) x0 x1 y
      = Cert.Gcn.cosHalf (Ideal.ofBits .f32 0x3F800000#32) (Ideal.ofBits .f32 0x3F000000#32) s d i := by
  obtain ⟨q, e, rfl⟩ : ∃ (q : Fin 1) (e : Fin 2048), y = ix2 q e := ⟨y 0, y 1, eq_ix2 y⟩
  have hi' : (i 1).val = b * 2048 + e.val := hi
  rw [cos_block]
  unfold Cert.Gcn.cosHalf
  refine congrArg (fun z => (z + Ideal.ofBits .f32 0x3F800000#32) * Ideal.ofBits .f32 0x3F000000#32) ?_
  refine Finset.sum_congr rfl fun l _ => ?_
  rw [hx0 e l (i 1) hi', hx1 e l (i 1) hi']

/-! ## From blocks to the score row

Grid point t handles edges 2048·t … 2048·t + 2047: it reads those rows of S and of D and writes columns
2048·t … 2048·t + 2047 of the score row. The eight points cover all 16384 columns. -/

theorem zeroOffsets : (![0, 0] : Fin 2 → Nat) = fun _ => 0 := funext fun a => by fin_cases a <;> rfl

/-- Where the three windows sit at point t: the edge blocks at block row t, column block 0; the score block at
    block row 0, block column t — the same t. -/
theorem cos_blocks_at : ∀ t : Fin cfg3.N, win3_0.index t (0 : Fin 2) = win3_2.index t (1 : Fin 2)
    ∧ win3_0.index t (1 : Fin 2) = 0
    ∧ win3_1.index t (0 : Fin 2) = win3_2.index t (1 : Fin 2)
    ∧ win3_1.index t (1 : Fin 2) = 0
    ∧ win3_2.index t (0 : Fin 2) = 0
    ∧ win3_2.index t (1 : Fin 2) ≤ 7 :=
  (by decide +kernel : ∀ t : Fin grid3.N, _)

/-- Every block of the score row is some point's. -/
theorem cos_block_onto : ∀ q : Fin 8, ∃ t : Fin cfg3.N, win3_2.index t = ![0, q.val] :=
  (by decide +kernel : ∀ q : Fin 8, ∃ t : Fin grid3.N, win3_2.index t = ![0, q.val])

variable (V : (c : Dev nD) → (b : Ref sig .tc) → Buf (Elt Ideal) ((c : Thread nD τ).loc b))

/-- What point t writes back is block t of the score row. -/
theorem cos_flushed (c : Dev nD) (t : Fin cfg3.N) :
    (Gen.dat3 (F := Ideal) V c).flushed 2 t = ((cfg3.win 2).blk t).view.read (Elt Ideal)
      (Cert.Gcn.cosHalf (Ideal.ofBits .f32 0x3F800000#32) (Ideal.ofBits .f32 0x3F000000#32) (V c main_v3) (V c main_v4)) := by
  show (cfg3.win 2).cut (grid3.coords t) ((Gen.dat3 (F := Ideal) V c).after 2 t) = _
  rw [after3_2]
  unfold out3_2
  rw [View.canon_unit_zero zeroOffsets]
  simp only [View.ld_unit_zero (S := S2048x256) zeroOffsets]
  obtain ⟨e0, e1, e2, e3, e4, e5⟩ := cos_blocks_at t
  funext j
  refine cos_point (V c main_v3) (V c main_v4) (iblk3 V c 0 t) (iblk3 V c 1 t) (win3_2.index t (1 : Fin 2)) ?_ ?_ j
    (((cfg3.win 2).blk t).view.emb j) ?_
  · intro e l k hk
    show V c main_v3 (((cfg3.win 0).blk t).view.emb (ix2 e l)) = V c main_v3 (ix2 k l)
    refine congrArg (V c main_v3) (funext fun a => Fin.ext ?_)
    match a with
    | ⟨0, _⟩ => show win3_0.index t (0 : Fin 2) * 2048 + 1 * e.val = k.val; omega
    | ⟨1, _⟩ => show win3_0.index t (1 : Fin 2) * 256 + 1 * l.val = l.val; omega
  · intro e l k hk
    show V c main_v4 (((cfg3.win 1).blk t).view.emb (ix2 e l)) = V c main_v4 (ix2 k l)
    refine congrArg (V c main_v4) (funext fun a => Fin.ext ?_)
    match a with
    | ⟨0, _⟩ => show win3_1.index t (0 : Fin 2) * 2048 + 1 * e.val = k.val; omega
    | ⟨1, _⟩ => show win3_1.index t (1 : Fin 2) * 256 + 1 * l.val = l.val; omega
  · show win3_2.index t (1 : Fin 2) * 2048 + 1 * (j 1).val = win3_2.index t (1 : Fin 2) * 2048 + (j 1).val
    omega

/-- A column of the score row is in point t's block iff each coordinate is in the block's range on its axis. -/
theorem cos_mem_blk (t : Fin cfg3.N) (i : S1x16384.Idx) :
    i ∈ ((cfg3.win 2).blk t).view.set ↔ ∀ a : Fin 2, win3_2.index t a * S1x2048.size a ≤ (i a).val ∧ (i a).val < win3_2.index t a * S1x2048.size a + S1x2048.size a := by
  show i ∈ ((View.whole main_v5).slice (win3_2.rect t)).set ↔ _
  rw [View.set_slice_whole, Rect.mem_set_unit]
  exact Iff.rfl

/-- Column e is written by the point whose block is e / 2048. -/
theorem cos_cover (i : S1x16384.Idx) :
    ∃ t : Fin cfg3.N, (cfg3.win 2).flush t = true ∧ i ∈ ((cfg3.win 2).blk t).view.set := by
  have hi0 : (i 0).val < 1 := (i 0).isLt
  have hi1 : (i 1).val < 16384 := (i 1).isLt
  obtain ⟨t, ht⟩ := cos_block_onto ⟨(i 1).val / 2048, by omega⟩
  have q0 : win3_2.index t (0 : Fin 2) = 0 := congrFun ht 0
  have q1 : win3_2.index t (1 : Fin 2) = (i 1).val / 2048 := congrFun ht 1
  refine ⟨t, flush3_2 t, ?_⟩
  rw [cos_mem_blk]
  intro a
  match a with
  | ⟨0, _⟩ => show win3_2.index t (0 : Fin 2) * 1 ≤ (i 0).val ∧ (i 0).val < win3_2.index t (0 : Fin 2) * 1 + 1; omega
  | ⟨1, _⟩ => show win3_2.index t (1 : Fin 2) * 2048 ≤ (i 1).val ∧ (i 1).val < win3_2.index t (1 : Fin 2) * 2048 + 2048; omega

end Cert.KernelIdeal.Val.Cos

namespace Cert.KernelIdeal.Val

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The score row after the region: (⟨S e, D e⟩ + 1) · ½ at every edge e. -/
theorem cos_final (c : Dev nD) : (Gen.dat3 (F := Ideal) V c).arrAt 2 cfg3.N = Cert.Gcn.cosHalf (Ideal.ofBits .f32 0x3F800000#32) (Ideal.ofBits .f32 0x3F000000#32) (V c main_v3) (V c main_v4) :=
  (Gen.dat3 (F := Ideal) V c).arrAt_eq_of_cover 2 _ (fun t _ => Cos.cos_flushed V c t) Cos.cos_cover

end Cert.KernelIdeal.Val

end
-- ==== Proof.RXw.lean ====
/-
  The first layer's feature transform, X · W₁, as the blocked program leaves it.

  X : [4096, 256] is cut into eight row blocks of 512 rows; W₁ : [256, 256] is one block. At row block t the program
  stores the zero block, reads it back, and adds the product of X's row block t with W₁ to it, so entry (r, j) of the
  block it leaves is 0 + ∑ l < 256, X (512 t + r, l) · W₁ (l, j). That block is written back to rows 512 t … 512 t + 511
  of the result, the eight blocks tile the 4096 rows, and so the result is `Cert.Gcn.xw X W₁` at every index. The only
  laws used are 0 + x = x on the extended reals and the reading of a rows-by-columns product at an entry as the sum over
  the contracted coordinate.
-/
import proofs.«141059_g2000705357074448_pallasbulk_1090_2_alg».proof.Proof.Gen.ReferenceIdeal.Frame
import proofs.«141059_g2000705357074448_pallasbulk_1090_2_alg».proof.Proof.GcnSpec
import Idealize.ShloMosaic.Lib.Pipeline.Value
import Idealize.ShloMosaic.Lib.ValueLayout
import Idealize.ShloMosaic.Lib.Tactic

set_option maxRecDepth 16384

noncomputable section

namespace Cert.ReferenceIdeal.Val.Xw

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-- Both coordinates of the pair `(0, 0)` are zero: the offset of a block that is the whole buffer. -/
theorem zero_offsets : (![0, 0] : Fin 2 → Nat) = fun _ => 0 := funext fun a => by fin_cases a <;> rfl

/-- A rows-by-columns product into the zero block, at an entry: row `a` of the left factor against column `b` of
    the right one. -/
theorem product_entry {m k n : Nat}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    matmul (F := Ideal) (⟨[1], [0], [0], [1], [], [], w⟩ : DotDims _ _ _) none A B
        (constant (F := Ideal) ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- What the one case leaves in the output block: the zero block is stored first, read back, and the product of the
    row block with the weights is added to it. -/
theorem block_left (c : Dev nD) (i : grid0.Coords) (a2 : Memref sig .tc .vmem S512x256 .f32) (h2 : a2.IsWhole)
    (a3 : Memref sig .tc .vmem S256x256 .f32) (h3 : a3.IsWhole) (a4 : Memref sig .tc .vmem S512x256 .f32) (h4 : a4.IsWhole)
    (hc : cond0_0 i) (x0 : Vec Ideal S512x256 .f32) (x1 : Vec Ideal S256x256 .f32) :
    out0_A_2 (F := Ideal) c i a2 h2 a3 h3 a4 h4 hc x0 x1
      = k0_pay2 (View.ld x1 (Rect.unit (k0_off1 i) S256x256.size (k0_off1_inb i))) (k0_pay1 (F := Ideal)) x0 := by
  unfold out0_A_2
  rw [View.read_writes_eq_canon _ _ _ (cover0_A_2 c i a2 h2 a3 h3 a4 h4 hc x0 x1)]
  unfold kernelRun0_A
  dsimp only
  sl_unfold_run_names
  rw [View.canon_cons_unit_zero (S := S512x256) zero_offsets, View.readCov_unit_zero (S := S512x256) _ zero_offsets]
  simp only [View.readAt_eq_ld, h2.read_unread, h3.read_unread, View.ld_unit_zero (S := S512x256) zero_offsets]

/-- The weights are read from row 0 on: the second grid axis has one point. -/
theorem weights_offset : ∀ t : Fin cfg0.N, ∀ a : Fin 2, k0_off1 (grid0.coords t) a = 0 :=
  (by decide +kernel : ∀ t : Fin grid0.N, ∀ a : Fin 2, k0_off1 (grid0.coords t) a = 0)

/-- Point `t` works on row block `t`; the weights' block is the whole matrix. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the block the case leaves: zero, plus row `r` of the row block against column `j` of the weights. -/
theorem block_entry (w : Vec Ideal S256x256 .f32) (x : Vec Ideal S512x256 .f32) (r : Fin 512) (j : Fin 256) :
    k0_pay2 (F := Ideal) w (k0_pay1 (F := Ideal)) x (ix2 r j) = ∑ l : Fin 256, x (ix2 r l) * w (ix2 l j) := by
  unfold k0_pay2
  rw [shapeCast_self]
  show k0_pay1 (F := Ideal) (ix2 r j) + matmul (F := Ideal) dot_S512x256_S256x256_S512x256_1_0_0_1_n_n none x w _ (ix2 r j) = _
  unfold dot_S512x256_S256x256_S512x256_1_0_0_1_n_n
  refine (congrArg (k0_pay1 (F := Ideal) (ix2 r j) + ·) (product_entry _ x w r j)).trans ?_
  show Ideal.ofBits .f32 0x00000000#32 + _ = _
  rw [Ideal.ofBits_zero_f32, zero_add]

/-- What point `t` writes back is block `t` of the product of the two arrays. -/
theorem flushed_eq (c : Dev nD) (t : Fin cfg0.N) :
    (dat0 (F := Ideal) V c).flushed 2 t
      = ((cfg0.win 2).blk t).view.read (Elt Ideal) (Cert.Gcn.xw (V c main_arg0) (V c main_arg4)) := by
  show (cfg0.win 2).cut (grid0.coords t) ((dat0 (F := Ideal) V c).after 2 t) = _
  rw [after0_2]
  unfold outsAt0
  rw [block_left c (grid0.coords t) (ms0_0 t) (hs0_0 t) (ms0_1 t) (hs0_1 t) (ms0_2 t) (hs0_2 t) (hcond0_0 t) (iblk0 V c 0 t) (iblk0 V c 1 t)]
  rw [View.ld_unit_zero (S := S256x256) (funext (weights_offset t))]
  obtain ⟨e00, e01, e10, e11, e20, e21⟩ := block_indices t
  funext y
  obtain ⟨r, j, rfl⟩ : ∃ (r : Fin 512) (j : Fin 256), y = ix2 r j := ⟨y 0, y 1, eq_ix2 y⟩
  show k0_pay2 (F := Ideal) (iblk0 V c 1 t) (k0_pay1 (F := Ideal)) (iblk0 V c 0 t) (ix2 r j)
    = Cert.Gcn.xw (V c main_arg0) (V c main_arg4) (((cfg0.win 2).blk t).view.emb (ix2 r j))
  refine (block_entry (iblk0 V c 1 t) (iblk0 V c 0 t) r j).trans ?_
  unfold Cert.Gcn.xw
  refine Finset.sum_congr rfl fun l _ => ?_
  have hx : (iblk0 V c 0 t : Vec Ideal S512x256 .f32) (ix2 r l)
      = V c main_arg0 (ix2 ((((cfg0.win 2).blk t).view.emb (ix2 r j)) 0) l) := by
    show V c main_arg0 (((cfg0.win 0).blk t).view.emb (ix2 r l)) = _
    refine congrArg (V c main_arg0) (funext fun a => Fin.ext ?_)
    match a with
    | ⟨0, _⟩ => show win0_0.index t (0 : Fin 2) * 512 + 1 * r.val = win0_2.index t (0 : Fin 2) * 512 + 1 * r.val; rw [e00, e20]
    | ⟨1, _⟩ => show win0_0.index t (1 : Fin 2) * 256 + 1 * l.val = l.val; rw [e01]; omega
  have hw : (iblk0 V c 1 t : Vec Ideal S256x256 .f32) (ix2 l j)
      = V c main_arg4 (ix2 l ((((cfg0.win 2).blk t).view.emb (ix2 r j)) 1)) := by
    show V c main_arg4 (((cfg0.win 1).blk t).view.emb (ix2 l j)) = _
    refine congrArg (V c main_arg4) (funext fun a => Fin.ext ?_)
    match a with
    | ⟨0, _⟩ => show win0_1.index t (0 : Fin 2) * 256 + 1 * l.val = l.val; rw [e10]; omega
    | ⟨1, _⟩ => show win0_1.index t (1 : Fin 2) * 256 + 1 * j.val = win0_2.index t (1 : Fin 2) * 256 + 1 * j.val; rw [e11, e21]
  rw [hx, hw]

/-- An index of the array is in point `t`'s block iff each coordinate is in the block's range on its axis. -/
theorem mem_block (t : Fin cfg0.N) (i : S4096x256.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v0).slice (win0_2.rect t)).set ↔ _
  rw [View.set_slice_whole, Rect.mem_set_unit]
  exact Iff.rfl

/-- The array after the region: the product, at every index — row `i₀` lies in row block `i₀ / 512`. -/
theorem product_everywhere (c : Dev nD) : (Gen.dat0 (F := Ideal) V c).arrAt 2 cfg0.N = Cert.Gcn.xw (V c main_arg0) (V c main_arg4) :=
  (dat0 (F := Ideal) V c).arrAt_eq_of_cover 2 (Cert.Gcn.xw (V c main_arg0) (V c main_arg4)) (fun t _ => flushed_eq V c t) fun i => by
    have hi0 : (i 0).val < 4096 := (i 0).isLt
    have hi1 : (i 1).val < 256 := (i 1).isLt
    have hN : cfg0.N = 8 := N_0
    refine ⟨⟨(i 0).val / 512, by rw [hN]; omega⟩, flush0_2 _, ?_⟩
    rw [mem_block]
    obtain ⟨e00, e01, e10, e11, e20, e21⟩ := block_indices ⟨(i 0).val / 512, by rw [hN]; omega⟩
    intro a
    match a with
    | ⟨0, _⟩ => show win0_2.index _ (0 : Fin 2) * 512 ≤ (i 0).val ∧ (i 0).val < win0_2.index _ (0 : Fin 2) * 512 + 512; rw [e20]; dsimp only; omega
    | ⟨1, _⟩ => show win0_2.index _ (1 : Fin 2) * 256 ≤ (i 1).val ∧ (i 1).val < win0_2.index _ (1 : Fin 2) * 256 + 256; rw [e21]; omega

end Cert.ReferenceIdeal.Val.Xw

namespace Cert.ReferenceIdeal.Val

open Idealize.ShloMosaic Idealize.ShloMosaic.TcCoe Idealize.ShloMosaic.Tactic
open Idealize.SL Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-- The array the first region leaves is X · W₁. -/
theorem xw_final (c : Dev nD) : (Gen.dat0 (F := Ideal) V c).arrAt 2 cfg0.N = Cert.Gcn.xw (V c main_arg0) (V c main_arg4) :=
  Xw.product_everywhere V c

end Cert.ReferenceIdeal.Val

end
-- ==== Proof.RHidden.lean ====
/-
  The hidden layer of the link predictor, as the blocked program computes it.

  With A : [4096, 4096] the adjacency matrix, H : [4096, 256] the first layer's features X · W₁ and W₂ : [256, 256],
  the region runs over an 8 × 8 grid. Point (i, k) reads block (i, k) of A (512 × 512) and the 512 rows of H from
  row 512 k, and accumulates into the resident 512 × 256 output block of row block i:
    k = 0      the block is set to zero, then the partial product A[i, 0] · H[0] is added;
    0 < k < 7  the partial product A[i, k] · H[k] is added to what the point before left;
    k = 7      the last partial product is added, and the block becomes max (acc, 0) · W₂, which is written back.
  So after the point at position k < 7 of a run the block holds, at (r, j),
    ∑ b ≤ k, ∑ q < 512, A (512 i + r, 512 b + q) · H (512 b + q, j),
  and the last point completes this to the sum over all 4096 neighbours (a sum over 4096 taken in 8 runs of 512 is the
  sum over 4096: addition on the extended reals is a commutative monoid, no finiteness is used), so the entry written
  back is ∑ l < 256, max ((A · H) (512 i + r, l)) 0 · W₂ (l, j). The eight row blocks tile the 4096 rows.
-/
import proofs.«141059_g2000705357074448_pallasbulk_1090_2_alg».proof.Proof.Gen.ReferenceIdeal.Frame
import proofs.«141059_g2000705357074448_pallasbulk_1090_2_alg».proof.Proof.GcnSpec
import Idealize.ShloMosaic.Lib.Pipeline.Value

set_option maxRecDepth 16384

noncomputable section

namespace Cert.ReferenceIdeal.Val.Hidden

open Idealize.ShloMosaic Idealize.ShloMosaic.TcCoe Idealize.ShloMosaic.Tactic
open Idealize.SL Idealize.SL.Sem
open Idealize.ShloMosaic.Pipeline (Dat Cfg Window)
open Cert.ReferenceIdeal Cert.ReferenceIdeal.Gen

/-- Offsets `[0, 0]` are the zero offsets. -/
theorem hz : (![0, 0] : Fin 2 → Nat) = fun _ => 0 := funext fun a => by fin_cases a <;> rfl

/-! ## What each of the three cases leaves in the output block

With `x0` the 512 × 512 block of the adjacency matrix, `x1` the whole 4096 × 256 feature array (of which the body
reads the 512 rows starting at `512 k`), `x2` the 256 × 256 weights and `xo` the block the point before left:
the first point of a run stores zero and adds one partial product to it, a middle point adds one partial product to
`xo`, and the last point does the same and then applies the rectifier and the second product. -/

/-- A middle point of a run: the block the point before left plus one partial product. -/
theorem out_B (c : Dev nD) (i : grid1.Coords) (a2 : Memref sig .tc .vmem S512x512 .f32) (h2 : a2.IsWhole) (a3 : Memref sig .tc .vmem S4096x256 .f32) (h3 : a3.IsWhole) (a4 : Memref sig .tc .vmem S256x256 .f32) (h4 : a4.IsWhole) (a5 : Memref sig .tc .vmem S512x256 .f32) (h5 : a5.IsWhole) (hc0 : ¬cond1_0 i) (hc1 : ¬cond1_1 i)
    (x0 : Vec Ideal S512x512 .f32) (x1 : Vec Ideal S4096x256 .f32) (x2 : Vec Ideal S256x256 .f32) (xo : Vec Ideal S512x256 .f32) :
    out1_B_3 (F := Ideal) c i a2 h2 a3 h3 a4 h4 a5 h5 hc0 hc1 x0 x1 x2 xo
      = k1_pay2 (View.ld x1 (Rect.unit (s := S4096x256) (k1_off1 i) S512x256.size (k1_off1_inb i))) xo x0 := by
  unfold out1_B_3
  rw [View.read_writes_eq_canon _ _ _ (cover1_B_3 c i a2 h2 a3 h3 a4 h4 a5 h5 hc0 hc1 x0 x1 x2 xo)]
  unfold kernelRun1_B
  dsimp only
  rw [View.canon_unit_zero hz]
  simp only [View.readAt_eq_ld, h2.read_unread, h3.read_unread, h5.read_unread, View.ld_unit_zero (S := S512x256) hz,
    View.ld_unit_zero (S := S512x512) hz]

/-- The first point of a run: zero plus the first partial product. -/
theorem out_A (c : Dev nD) (i : grid1.Coords) (a2 : Memref sig .tc .vmem S512x512 .f32) (h2 : a2.IsWhole) (a3 : Memref sig .tc .vmem S4096x256 .f32) (h3 : a3.IsWhole) (a4 : Memref sig .tc .vmem S256x256 .f32) (h4 : a4.IsWhole) (a5 : Memref sig .tc .vmem S512x256 .f32) (h5 : a5.IsWhole) (hc0 : cond1_0 i) (hc1 : ¬cond1_1 i)
    (x0 : Vec Ideal S512x512 .f32) (x1 : Vec Ideal S4096x256 .f32) (x2 : Vec Ideal S256x256 .f32) :
    out1_A_3 (F := Ideal) c i a2 h2 a3 h3 a4 h4 a5 h5 hc0 hc1 x0 x1 x2
      = k1_pay2 (View.ld x1 (Rect.unit (s := S4096x256) (k1_off1 i) S512x256.size (k1_off1_inb i))) (k1_pay1 (F := Ideal)) x0 := by
  unfold out1_A_3
  rw [View.read_writes_eq_canon _ _ _ (cover1_A_3 c i a2 h2 a3 h3 a4 h4 a5 h5 hc0 hc1 x0 x1 x2)]
  unfold kernelRun1_A
  dsimp only
  sl_unfold_words
  rw [View.canon_cons_unit_zero (S := S512x256) hz, View.readCov_unit_zero (S := S512x256) _ hz]
  simp only [View.readAt_eq_ld, h2.read_unread, h3.read_unread, View.ld_unit_zero (S := S512x512) hz]

/-- The last point of a run: the full sum, rectified and multiplied by the second weights. -/
theorem out_C (c : Dev nD) (i : grid1.Coords) (a2 : Memref sig .tc .vmem S512x512 .f32) (h2 : a2.IsWhole) (a3 : Memref sig .tc .vmem S4096x256 .f32) (h3 : a3.IsWhole) (a4 : Memref sig .tc .vmem S256x256 .f32) (h4 : a4.IsWhole) (a5 : Memref sig .tc .vmem S512x256 .f32) (h5 : a5.IsWhole) (hc0 : ¬cond1_0 i) (hc1 : cond1_1 i)
    (x0 : Vec Ideal S512x512 .f32) (x1 : Vec Ideal S4096x256 .f32) (x2 : Vec Ideal S256x256 .f32) (xo : Vec Ideal S512x256 .f32) :
    out1_C_3 (F := Ideal) c i a2 h2 a3 h3 a4 h4 a5 h5 hc0 hc1 x0 x1 x2 xo
      = k1_pay3 (k1_pay2 (View.ld x1 (Rect.unit (s := S4096x256) (k1_off1 i) S512x256.size (k1_off1_inb i))) xo x0) x2 := by
  unfold out1_C_3
  rw [View.read_writes_eq_canon _ _ _ (cover1_C_3 c i a2 h2 a3 h3 a4 h4 a5 h5 hc0 hc1 x0 x1 x2 xo)]
  unfold kernelRun1_C
  dsimp only
  sl_unfold_words
  rw [View.canon_cons_unit_zero (S := S512x256) hz, View.readCov_unit_zero (S := S512x256) _ hz]
  simp only [View.readAt_eq_ld, h2.read_unread, h3.read_unread, h4.read_unread, h5.read_unread,
    View.ld_unit_zero (S := S512x256) hz, View.ld_unit_zero (S := S512x512) hz, View.ld_unit_zero (S := S256x256) hz]

/-! ## The body's arithmetic at an index -/

open Idealize.ShloMosaic.ValueIdx

/-- The 512 × 512 by 512 × 256 product into a zero accumulator, at an index: the sum over the contracted coordinate. -/
theorem matmul_blockAH (lhs : FVec Ideal S512x512 .f32) (rhs : FVec Ideal S512x256 .f32) (r : Fin 512) (j : Fin 256) :
    matmul dot_S512x512_S512x256_S512x256_1_0_0_1_n_n none lhs rhs (constant (F := Ideal) S512x256 .f32 0x00000000#32) (ix2 r j)
      = ∑ q : Fin 512, lhs (ix2 r q) * rhs (ix2 q j) := by
  refine (Ideal.matmul_constant_zero_apply dot_S512x512_S512x256_S512x256_1_0_0_1_n_n none lhs rhs (ix2 r j)).trans ?_
  rw [← Equiv.sum_comp (contrEquiv1 dot_S512x512_S512x256_S512x256_1_0_0_1_n_n 512 rfl rfl).symm]
  refine Finset.sum_congr rfl fun q _ => ?_
  have cq := contrEquiv1_symm_val dot_S512x512_S512x256_S512x256_1_0_0_1_n_n 512 rfl rfl q
  have l2 : dot_S512x512_S512x256_S512x256_1_0_0_1_n_n.lhsIdx (ix2 r j) ((contrEquiv1 _ 512 rfl rfl).symm q) = ix2 r q := by
    funext ax; apply Fin.ext
    match ax with
    | ⟨0, _⟩ => simp [DotDims.lhsIdx, dot_S512x512_S512x256_S512x256_1_0_0_1_n_n]; rfl
    | ⟨1, _⟩ => simp [DotDims.lhsIdx, dot_S512x512_S512x256_S512x256_1_0_0_1_n_n]; exact cq
  have r2 : dot_S512x512_S512x256_S512x256_1_0_0_1_n_n.rhsIdx (ix2 r j) ((contrEquiv1 _ 512 rfl rfl).symm q) = ix2 q j := by
    funext ax; apply Fin.ext
    match ax with
    | ⟨0, _⟩ => simp [DotDims.rhsIdx, dot_S512x512_S512x256_S512x256_1_0_0_1_n_n]; exact cq
    | ⟨1, _⟩ => simp [DotDims.rhsIdx, dot_S512x512_S512x256_S512x256_1_0_0_1_n_n]; rfl
  rw [l2, r2]

/-- The 512 × 256 by 256 × 256 product into a zero accumulator, at an index. -/
theorem matmul_blockW (lhs : FVec Ideal S512x256 .f32) (rhs : FVec Ideal S256x256 .f32) (r : Fin 512) (j : Fin 256) :
    matmul dot_S512x256_S256x256_S512x256_1_0_0_1_n_n none lhs rhs (constant (F := Ideal) S512x256 .f32 0x00000000#32) (ix2 r j)
      = ∑ l : Fin 256, lhs (ix2 r l) * rhs (ix2 l j) := by
  refine (Ideal.matmul_constant_zero_apply dot_S512x256_S256x256_S512x256_1_0_0_1_n_n none lhs rhs (ix2 r j)).trans ?_
  rw [← Equiv.sum_comp (contrEquiv1 dot_S512x256_S256x256_S512x256_1_0_0_1_n_n 256 rfl rfl).symm]
  refine Finset.sum_congr rfl fun q _ => ?_
  have cq := contrEquiv1_symm_val dot_S512x256_S256x256_S512x256_1_0_0_1_n_n 256 rfl rfl q
  have l2 : dot_S512x256_S256x256_S512x256_1_0_0_1_n_n.lhsIdx (ix2 r j) ((contrEquiv1 _ 256 rfl rfl).symm q) = ix2 r q := by
    funext ax; apply Fin.ext
    match ax with
    | ⟨0, _⟩ => simp [DotDims.lhsIdx, dot_S512x256_S256x256_S512x256_1_0_0_1_n_n]; rfl
    | ⟨1, _⟩ => simp [DotDims.lhsIdx, dot_S512x256_S256x256_S512x256_1_0_0_1_n_n]; exact cq
  have r2 : dot_S512x256_S256x256_S512x256_1_0_0_1_n_n.rhsIdx (ix2 r j) ((contrEquiv1 _ 256 rfl rfl).symm q) = ix2 q j := by
    funext ax; apply Fin.ext
    match ax with
    | ⟨0, _⟩ => simp [DotDims.rhsIdx, dot_S512x256_S256x256_S512x256_1_0_0_1_n_n]; exact cq
    | ⟨1, _⟩ => simp [DotDims.rhsIdx, dot_S512x256_S256x256_S512x256_1_0_0_1_n_n]; rfl
  rw [l2, r2]

/-- One accumulation step at an index: the entry the point before left plus the partial product's entry. -/
theorem pay2_apply (v6 : Vec Ideal S512x256 .f32) (v8 : Vec Ideal S512x256 .f32) (v10 : Vec Ideal S512x512 .f32)
    (r : Fin 512) (j : Fin 256) :
    k1_pay2 (F := Ideal) v6 v8 v10 (ix2 r j) = v8 (ix2 r j) + ∑ q : Fin 512, v10 (ix2 r q) * v6 (ix2 q j) := by
  unfold k1_pay2
  simp only [shapeCast_self]
  exact congrArg (fun e => v8 (ix2 r j) + e) (matmul_blockAH v10 v6 r j)

/-- The zero block at an index. -/
theorem pay1_apply (r : Fin 512) (j : Fin 256) : k1_pay1 (F := Ideal) (ix2 r j) = 0 :=
  Ideal.ofBits_zero_f32

/-- The epilogue at an index: the rectified row times the second weights' column. -/
theorem pay3_apply (v17 : Vec Ideal S512x256 .f32) (v21 : Vec Ideal S256x256 .f32) (r : Fin 512) (j : Fin 256) :
    k1_pay3 (F := Ideal) v17 v21 (ix2 r j)
      = ∑ l : Fin 256, max (v17 (ix2 r l)) (Ideal.ofBits .f32 0x00000000#32) * v21 (ix2 l j) := by
  unfold k1_pay3
  simp only [shapeCast_self]
  exact matmul_blockW _ v21 r j

variable (V : (c : Dev nD) → (b : Ref sig .tc) → Buf (Elt Ideal) ((c : Thread nD τ).loc b))

/-! ## The blocks the body reads, as entries of the whole arrays

Point `t = 8 i + k` of the 8 × 8 grid reads block `(i, k)` of the adjacency matrix (512 × 512), the whole feature
array, of which the body loads the 512 rows from `512 k`, and the whole second weight matrix; it writes row block
`i` of the result. -/

/-- The printed index maps and the body's row offset, decided once over the 64 points. -/
theorem idx_facts : ∀ t : Fin cfg1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0
    ∧ k1_off1 (grid1.coords t) (0 : Fin 2) = 512 * (t.val % 8) ∧ k1_off1 (grid1.coords t) (1 : Fin 2) = 0 :=
  (by decide +kernel : ∀ t : Fin grid1.N, _)

/-- The row block a point works on, … -/
def rowBlk (t : Fin cfg1.N) : Fin 8 := ⟨t.val / 8, by have h := t.isLt; have hN : cfg1.N = 64 := N_1; omega⟩
/-- … and its position in the run of eight points that contracts that row block. -/
def runPos (t : Fin cfg1.N) : Fin 8 := ⟨t.val % 8, Nat.mod_lt _ (by decide)⟩

/-- Entry `(r, q)` of the adjacency block at point `t` is entry `(512 i + r, 512 k + q)` of the matrix. -/
theorem blkA (c : Dev nD) (t : Fin cfg1.N) (r q : Fin 512) :
    (iblk1 V c 0 t : Vec Ideal S512x512 .f32) (ix2 r q)
      = (V c main_arg1 : Cert.Gcn.Adj.Idx → EReal) (ix2 (Cert.Gcn.runIdx (rowBlk t) r) (Cert.Gcn.runIdx (runPos t) q)) := by
  obtain ⟨e0, e1, -⟩ := idx_facts t
  show V c main_arg1 (((cfg1.win 0).blk t).view.emb (ix2 r q)) = V c main_arg1 _
  refine congrArg (V c main_arg1) ?_
  funext a; apply Fin.ext
  match a with
  | ⟨0, _⟩ => show win1_0.index t (0 : Fin 2) * 512 + 1 * r.val = 512 * (t.val / 8) + r.val; omega
  | ⟨1, _⟩ => show win1_0.index t (1 : Fin 2) * 512 + 1 * q.val = 512 * (t.val % 8) + q.val; omega

/-- Entry `(q, j)` of the 512 rows the body loads at point `t` is entry `(512 k + q, j)` of the feature array. -/
theorem blkH (c : Dev nD) (t : Fin cfg1.N) (q : Fin 512) (j : Fin 256) :
    View.ld (iblk1 V c 1 t : Vec Ideal S4096x256 .f32)
        (Rect.unit (s := S4096x256) (k1_off1 (grid1.coords t)) S512x256.size (k1_off1_inb (grid1.coords t))) (ix2 q j)
      = (V c main_v0 : Cert.Gcn.Nodes.Idx → EReal) (ix2 (Cert.Gcn.runIdx (runPos t) q) j) := by
  obtain ⟨-, -, e2, e3, -, -, -, -, e8, e9⟩ := idx_facts t
  show V c main_v0 (((cfg1.win 1).blk t).view.emb
    ((Rect.unit (s := S4096x256) (k1_off1 (grid1.coords t)) S512x256.size (k1_off1_inb (grid1.coords t))).idx (ix2 q j))) = V c main_v0 _
  refine congrArg (V c main_v0) ?_
  funext a; apply Fin.ext
  match a with
  | ⟨0, _⟩ => show win1_1.index t (0 : Fin 2) * 4096 + 1 * (k1_off1 (grid1.coords t) (0 : Fin 2) + 1 * q.val) = 512 * (t.val % 8) + q.val; omega
  | ⟨1, _⟩ => show win1_1.index t (1 : Fin 2) * 256 + 1 * (k1_off1 (grid1.coords t) (1 : Fin 2) + 1 * j.val) = j.val; omega

/-- The second weights' block is the whole matrix. -/
theorem blkW (c : Dev nD) (t : Fin cfg1.N) (l j : Fin 256) :
    (iblk1 V c 2 t : Vec Ideal S256x256 .f32) (ix2 l j) = (V c main_arg5 : Cert.Gcn.Wts.Idx → EReal) (ix2 l j) := by
  obtain ⟨-, -, -, -, e4, e5, -⟩ := idx_facts t
  show V c main_arg5 (((cfg1.win 2).blk t).view.emb (ix2 l j)) = V c main_arg5 _
  refine congrArg (V c main_arg5) ?_
  funext a; apply Fin.ext
  match a with
  | ⟨0, _⟩ => show win1_2.index t (0 : Fin 2) * 256 + 1 * l.val = l.val; omega
  | ⟨1, _⟩ => show win1_2.index t (1 : Fin 2) * 256 + 1 * j.val = j.val; omega

/-! ## The accumulator over a run of eight points

Row block `i` is contracted over the eight column blocks `b = 0 … 7` of the adjacency matrix at the points
`8 i + b`. After the point at position `k < 7` of the run the output block holds the first `k + 1` partial products'
sum; the last point completes the sum over all 4096 neighbours, rectifies it and multiplies by the second weights. -/

open Cert.Gcn (runIdx)

/-- The first `n` partial products, summed, at row `512 i + r` and column `j`. -/
def partSum (a : Cert.Gcn.Adj.Idx → EReal) (h : Cert.Gcn.Nodes.Idx → EReal) (i : Fin 8) (n : ℕ) (r : Fin 512) (j : Fin 256) : EReal :=
  ∑ b ∈ Finset.univ.filter (fun b : Fin 8 => b.val < n),
    ∑ q : Fin 512, a (ix2 (runIdx i r) (runIdx b q)) * h (ix2 (runIdx b q) j)

/-- No partial product yet: zero. -/
theorem partSum_zero (a : Cert.Gcn.Adj.Idx → EReal) (h : Cert.Gcn.Nodes.Idx → EReal) (i : Fin 8) (r : Fin 512) (j : Fin 256) :
    partSum a h i 0 r j = 0 := by
  unfold partSum
  simp

/-- One more partial product (the regrouping law's step). -/
theorem partSum_succ (a : Cert.Gcn.Adj.Idx → EReal) (h : Cert.Gcn.Nodes.Idx → EReal) (i k : Fin 8) (r : Fin 512) (j : Fin 256) :
    partSum a h i (k.val + 1) r j
      = partSum a h i k.val r j + ∑ q : Fin 512, a (ix2 (runIdx i r) (runIdx k q)) * h (ix2 (runIdx k q) j) :=
  Cert.Gcn.sum_runs_succ (fun b : Fin 8 => ∑ q : Fin 512, a (ix2 (runIdx i r) (runIdx b q)) * h (ix2 (runIdx b q) j)) k.val k.isLt

/-- All eight partial products: the sum over the 4096 neighbours (the regrouping law). -/
theorem partSum_full (a : Cert.Gcn.Adj.Idx → EReal) (h : Cert.Gcn.Nodes.Idx → EReal) (i : Fin 8) (r : Fin 512) (j : Fin 256) :
    partSum a h i 8 r j = Cert.Gcn.aggr a h (ix2 (runIdx i r) j) := by
  unfold partSum
  rw [Finset.filter_true_of_mem (fun b _ => b.isLt)]
  exact Cert.Gcn.sum_runs (fun k : Fin 4096 => a (ix2 (runIdx i r) k) * h (ix2 k j))

/-- One accumulation step on blocks that are the entries of the whole arrays: from the first `k` partial products
    to the first `k + 1`. -/
theorem step (a : Cert.Gcn.Adj.Idx → EReal) (h : Cert.Gcn.Nodes.Idx → EReal)
    (x0 : Vec Ideal S512x512 .f32) (rows : Vec Ideal S512x256 .f32) (acc : Vec Ideal S512x256 .f32) (i k : Fin 8)
    (hx0 : ∀ (r q : Fin 512), x0 (ix2 r q) = a (ix2 (runIdx i r) (runIdx k q)))
    (hrows : ∀ (q : Fin 512) (j : Fin 256), rows (ix2 q j) = h (ix2 (runIdx k q) j))
    (hacc : ∀ (r : Fin 512) (j : Fin 256), acc (ix2 r j) = partSum a h i k.val r j) (r : Fin 512) (j : Fin 256) :
    k1_pay2 (F := Ideal) rows acc x0 (ix2 r j) = partSum a h i (k.val + 1) r j := by
  rw [pay2_apply, hacc, partSum_succ]
  simp only [hx0, hrows]

/-- The first point of a run leaves the first partial product. -/
theorem acc_first (c : Dev nD) (t : Fin cfg1.N) (h0 : t.val % 8 = 0) (r : Fin 512) (j : Fin 256) :
    outsAt1 V c t.val t.isLt (ix2 r j) = partSum (V c main_arg1) (V c main_v0) (rowBlk t) (t.val % 8 + 1) r j := by
  have h1 : ¬t.val % 8 = 7 := by omega
  rw [outsAt1_A V c t h0 h1,
    out_A c (grid1.coords t) (ms1_0 t) (hs1_0 t) (ms1_1 t) (hs1_1 t) (ms1_2 t) (hs1_2 t) (ms1_3 t) (hs1_3 t)
      ((hcond1_0 t).mpr h0) (fun h => h1 ((hcond1_1 t).mp h)) (iblk1 V c 0 t) (iblk1 V c 1 t) (iblk1 V c 2 t)]
  have hk : (runPos t).val = 0 := h0
  exact step (V c main_arg1) (V c main_v0) (iblk1 V c 0 t)
    (View.ld (iblk1 V c 1 t : Vec Ideal S4096x256 .f32)
      (Rect.unit (s := S4096x256) (k1_off1 (grid1.coords t)) S512x256.size (k1_off1_inb (grid1.coords t))))
    (k1_pay1 (F := Ideal)) (rowBlk t) (runPos t) (blkA V c t) (blkH V c t)
    (fun r j => by rw [pay1_apply, hk, partSum_zero]) r j

/-- A middle point of a run adds its partial product to what the point before left. -/
theorem acc_middle (c : Dev nD) (t : Fin cfg1.N) (h0 : ¬t.val % 8 = 0) (h1 : ¬t.val % 8 = 7)
    (ih : ∀ (r : Fin 512) (j : Fin 256),
      outsAt1 V c (t.val - 1) (Nat.lt_of_le_of_lt (Nat.sub_le _ _) t.isLt) (ix2 r j)
        = partSum (V c main_arg1) (V c main_v0) (rowBlk t) (t.val % 8) r j)
    (r : Fin 512) (j : Fin 256) :
    outsAt1 V c t.val t.isLt (ix2 r j) = partSum (V c main_arg1) (V c main_v0) (rowBlk t) (t.val % 8 + 1) r j := by
  rw [outsAt1_B V c t h0 h1,
    out_B c (grid1.coords t) (ms1_0 t) (hs1_0 t) (ms1_1 t) (hs1_1 t) (ms1_2 t) (hs1_2 t) (ms1_3 t) (hs1_3 t)
      (fun h => h0 ((hcond1_0 t).mp h)) (fun h => h1 ((hcond1_1 t).mp h)) (iblk1 V c 0 t) (iblk1 V c 1 t) (iblk1 V c 2 t)
      (outsAt1 V c (t.val - 1) (Nat.lt_of_le_of_lt (Nat.sub_le _ _) t.isLt))]
  exact step (V c main_arg1) (V c main_v0) (iblk1 V c 0 t)
    (View.ld (iblk1 V c 1 t : Vec Ideal S4096x256 .f32)
      (Rect.unit (s := S4096x256) (k1_off1 (grid1.coords t)) S512x256.size (k1_off1_inb (grid1.coords t))))
    (outsAt1 V c (t.val - 1) (Nat.lt_of_le_of_lt (Nat.sub_le _ _) t.isLt)) (rowBlk t) (runPos t) (blkA V c t) (blkH V c t)
    ih r j

/-- THE INVARIANT: after the point at position `k < 7` of its run the output block holds the first `k + 1` partial
    products' sum — by induction on the point. -/
theorem acc_eq (c : Dev nD) : ∀ (n : ℕ) (hn : n < cfg1.N), ¬n % 8 = 7 → ∀ (r : Fin 512) (j : Fin 256),
    outsAt1 V c n hn (ix2 r j) = partSum (V c main_arg1) (V c main_v0) (rowBlk ⟨n, hn⟩) (n % 8 + 1) r j
  | 0, hn, _ => acc_first V c ⟨0, hn⟩ rfl
  | n + 1, hn, h7 => by
    by_cases h0 : (n + 1) % 8 = 0
    · exact acc_first V c ⟨n + 1, hn⟩ h0
    · refine acc_middle V c ⟨n + 1, hn⟩ h0 h7 ?_
      intro r j
      have ih := acc_eq c n (Nat.lt_of_succ_lt hn) (by omega) r j
      have e1 : rowBlk ⟨n, Nat.lt_of_succ_lt hn⟩ = rowBlk ⟨n + 1, hn⟩ := Fin.ext (by show n / 8 = (n + 1) / 8; omega)
      have e2 : n % 8 + 1 = (n + 1) % 8 := by omega
      rw [e1, e2] at ih
      exact ih

/-- The last point of a run leaves the finished entries: the full sum, rectified, times the second weights. -/
theorem acc_last (c : Dev nD) (t : Fin cfg1.N) (h1 : t.val % 8 = 7) (r : Fin 512) (j : Fin 256) :
    outsAt1 V c t.val t.isLt (ix2 r j)
      = Cert.Gcn.hidden (Ideal.ofBits .f32 0x00000000#32) (V c main_arg1) (V c main_v0) (V c main_arg5) (ix2 (runIdx (rowBlk t) r) j) := by
  have h0 : ¬t.val % 8 = 0 := by omega
  have hN : t.val < 64 := lt_of_lt_of_eq t.isLt (show cfg1.N = 64 from N_1)
  rw [outsAt1_C V c t h0 h1,
    out_C c (grid1.coords t) (ms1_0 t) (hs1_0 t) (ms1_1 t) (hs1_1 t) (ms1_2 t) (hs1_2 t) (ms1_3 t) (hs1_3 t)
      (fun h => h0 ((hcond1_0 t).mp h)) ((hcond1_1 t).mpr h1) (iblk1 V c 0 t) (iblk1 V c 1 t) (iblk1 V c 2 t)
      (outsAt1 V c (t.val - 1) (Nat.lt_of_le_of_lt (Nat.sub_le _ _) t.isLt)),
    pay3_apply]
  show _ = ∑ l : Fin 256, max (Cert.Gcn.aggr (V c main_arg1) (V c main_v0) (ix2 (runIdx (rowBlk t) r) l))
      (Ideal.ofBits .f32 0x00000000#32) * (V c main_arg5 : Cert.Gcn.Wts.Idx → EReal) (ix2 l j)
  refine Finset.sum_congr rfl fun l _ => ?_
  have ih : ∀ (r : Fin 512) (j : Fin 256),
      outsAt1 V c (t.val - 1) (Nat.lt_of_le_of_lt (Nat.sub_le _ _) t.isLt) (ix2 r j)
        = partSum (V c main_arg1) (V c main_v0) (rowBlk t) (runPos t).val r j := by
    intro r j
    have e := acc_eq V c (t.val - 1) (Nat.lt_of_le_of_lt (Nat.sub_le _ _) t.isLt) (by omega) r j
    have e1 : rowBlk ⟨t.val - 1, Nat.lt_of_le_of_lt (Nat.sub_le _ _) t.isLt⟩ = rowBlk t := Fin.ext (by show (t.val - 1) / 8 = t.val / 8; omega)
    have e2 : (t.val - 1) % 8 + 1 = (runPos t).val := by show (t.val - 1) % 8 + 1 = t.val % 8; omega
    rw [e1, e2] at e
    exact e
  have hs := step (V c main_arg1) (V c main_v0) (iblk1 V c 0 t)
    (View.ld (iblk1 V c 1 t : Vec Ideal S4096x256 .f32)
      (Rect.unit (s := S4096x256) (k1_off1 (grid1.coords t)) S512x256.size (k1_off1_inb (grid1.coords t))))
    (outsAt1 V c (t.val - 1) (Nat.lt_of_le_of_lt (Nat.sub_le _ _) t.isLt)) (rowBlk t) (runPos t) (blkA V c t) (blkH V c t)
    ih r l
  have hk : (runPos t).val + 1 = 8 := by show t.val % 8 + 1 = 8; omega
  rw [hk, partSum_full] at hs
  exact congrArg₂ (fun x y : EReal => max x (Ideal.ofBits .f32 0x00000000#32) * y) hs (blkW V c t l j)

/-! ## From the blocks to the array

Only the last point of a run writes the output block back: row block `i` of the result is written once, at point
`8 i + 7`, and the eight row blocks tile the 4096 rows. -/

/-- What a flushing point writes back is its row block of the hidden layer. -/
theorem flushed_eq (c : Dev nD) (t : Fin cfg1.N) (hf : (cfg1.win 3).flush t = true) :
    (dat1 (F := Ideal) V c).flushed 3 t = ((cfg1.win 3).blk t).view.read (Elt Ideal)
      (Cert.Gcn.hidden (Ideal.ofBits .f32 0x00000000#32) (V c main_arg1) (V c main_v0) (V c main_arg5)) := by
  have h7 : t.val % 8 = 7 := (flush1_3 t).mp hf
  obtain ⟨-, -, -, -, -, -, e6, e7, -⟩ := idx_facts t
  show (cfg1.win 3).cut (grid1.coords t) ((dat1 (F := Ideal) V c).after 3 t) = _
  rw [after1_3]
  refine funext fun (y : S512x256.Idx) => ?_
  obtain ⟨r, j, rfl⟩ : ∃ (r : Fin 512) (j : Fin 256), y = ix2 r j := ⟨y 0, y 1, eq_ix2 y⟩
  show outsAt1 V c t.val t.isLt (ix2 r j)
    = Cert.Gcn.hidden (Ideal.ofBits .f32 0x00000000#32) (V c main_arg1) (V c main_v0) (V c main_arg5)
        (((cfg1.win 3).blk t).view.emb (ix2 r j))
  rw [acc_last V c t h7 r j]
  refine congrArg (Cert.Gcn.hidden (Ideal.ofBits .f32 0x00000000#32) (V c main_arg1) (V c main_v0) (V c main_arg5)) ?_
  funext a; apply Fin.ext
  match a with
  | ⟨0, _⟩ => show 512 * (t.val / 8) + r.val = win1_3.index t (0 : Fin 2) * 512 + 1 * r.val; omega
  | ⟨1, _⟩ => show j.val = win1_3.index t (1 : Fin 2) * 256 + 1 * j.val; omega

/-- An index of the result is in point `t`'s block iff each coordinate is in the block's range on its axis. -/
theorem mem_blk (t : Fin cfg1.N) (i : S4096x256.Idx) :
    i ∈ ((cfg1.win 3).blk t).view.set
      ↔ ∀ a : Fin 2, win1_3.index t a * S512x256.size a ≤ (i a).val ∧ (i a).val < win1_3.index t a * S512x256.size a + S512x256.size a := by
  show i ∈ ((View.whole main_v1).slice (win1_3.rect t)).set ↔ _
  rw [View.set_slice_whole, Rect.mem_set_unit]
  exact Iff.rfl

/-- Row `ρ` is written back by the last point of the run of row block `ρ / 512`. -/
theorem cover (i : S4096x256.Idx) :
    ∃ t : Fin cfg1.N, (cfg1.win 3).flush t = true ∧ i ∈ ((cfg1.win 3).blk t).view.set := by
  have hi0 : (i 0).val < 4096 := (i 0).isLt
  have hi1 : (i 1).val < 256 := (i 1).isLt
  have hN : cfg1.N = 64 := N_1
  let t : Fin cfg1.N := ⟨8 * ((i 0).val / 512) + 7, by omega⟩
  have ht : t.val = 8 * ((i 0).val / 512) + 7 := rfl
  obtain ⟨-, -, -, -, -, -, e6, e7, -⟩ := idx_facts t
  refine ⟨t, (flush1_3 t).mpr (by omega), ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 256 ≤ (i 1).val ∧ (i 1).val < win1_3.index t (1 : Fin 2) * 256 + 256; omega

end Cert.ReferenceIdeal.Val.Hidden

namespace Cert.ReferenceIdeal.Val

open Idealize.ShloMosaic Idealize.ShloMosaic.TcCoe Idealize.ShloMosaic.Tactic
open Idealize.SL Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-- THE RESULT: after the region the output array is the hidden layer max (A · XW₁, 0) · W₂ of the arrays the region
    found. -/
theorem hidden_final (c : Dev nD) : (Gen.dat1 (F := Ideal) V c).arrAt 3 cfg1.N = Cert.Gcn.hidden (Ideal.ofBits .f32 0x00000000#32) (V c main_arg1) (V c main_v0) (V c main_arg5) :=
  (dat1 (F := Ideal) V c).arrAt_eq_of_cover 3
    (Cert.Gcn.hidden (Ideal.ofBits .f32 0x00000000#32) (V c main_arg1) (V c main_v0) (V c main_arg5))
    (fun t hf => Hidden.flushed_eq V c t hf) Hidden.cover

end Cert.ReferenceIdeal.Val

end
-- ==== Proof.RUnit.lean ====
/-
  The second layer's aggregation with its rows brought to unit length, as the blocked program leaves it.

  With A : [4096, 4096] and H : [4096, 256], the region computes G = A · H and then scales every row of G by
  rsqrt (max (∑ l < 256, G (i, l)²) ε). The rows are cut into eight row blocks of 512, and the contraction over 4096 into
  eight runs of 512: the 64 points are t = 8 i + k, row block i, run k. The output block stays in place over the eight
  points of a row block and is written back after the eighth.
    k = 0      the zero block is stored, read back, and A's block (i, 0) times H's rows 0 … 511 is added to it;
    0 < k < 7  A's block (i, k) times H's rows 512 k … 512 k + 511 is added to the block held before;
    k = 7      the same, and then every row of the block is scaled as above (a lane sum of the squares, laid out as
               a column, clamped at ε, its reciprocal square root repeated along the 256 lanes).
  So after the point 8 i + k with k < 7 the entry (r, j) of the block is the sum of A (512 i + r, ·) · H (·, j) over the
  first k + 1 runs (by induction on the point; `Cert.Gcn.sum_runs_succ` is the step), and after k = 7 the eight runs
  make the whole sum over 4096 (`Cert.Gcn.sum_runs`), so the block is the row block i of
  `Cert.Gcn.unitRows ε (Cert.Gcn.aggr A H)`. The eight written blocks tile the 4096 rows. Only 0 + x = x and the
  regrouping of a sum in a commutative monoid are used: nothing needs the entries to be finite.
-/
import proofs.«141059_g2000705357074448_pallasbulk_1090_2_alg».proof.Proof.Gen.ReferenceIdeal.Frame
import proofs.«141059_g2000705357074448_pallasbulk_1090_2_alg».proof.Proof.GcnSpec
import Idealize.ShloMosaic.Lib.Pipeline.Value
import Idealize.ShloMosaic.Lib.ValueLayout
import Idealize.ShloMosaic.Lib.Tactic

set_option maxRecDepth 16384

noncomputable section

namespace Cert.ReferenceIdeal.Val.Unit

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-! ## The arithmetic of a step, at an entry -/

/-- Both coordinates of the pair `(0, 0)` are zero: the offset of a block that is the whole buffer. -/
theorem zero_offsets : (![0, 0] : Fin 2 → Nat) = fun _ => 0 := funext fun a => by fin_cases a <;> rfl

/-- A rows-by-columns product into the zero block, at an entry: row `a` of the left factor against column `b` of
    the right one. -/
theorem product_entry {m k n : Nat}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    matmul (F := Ideal) (⟨[1], [0], [0], [1], [], [], w⟩ : DotDims _ _ _) none A B
        (constant (F := Ideal) ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- An accumulation step at an entry: the block held before, plus row `r` of the adjacency block against column `j`
    of the 512 feature rows loaded for this step. -/
theorem step_entry (h acc : Vec Ideal S512x256 .f32) (x : Vec Ideal S512x512 .f32) (r : Fin 512) (j : Fin 256) :
    k2_pay2 (F := Ideal) h acc x (ix2 r j) = acc (ix2 r j) + ∑ q : Fin 512, x (ix2 r q) * h (ix2 q j) := by
  unfold k2_pay2
  rw [shapeCast_self, shapeCast_self]
  show acc (ix2 r j) + matmul (F := Ideal) dot_S512x512_S512x256_S512x256_1_0_0_1_n_n none x h _ (ix2 r j) = _
  unfold dot_S512x512_S512x256_S512x256_1_0_0_1_n_n
  exact congrArg (acc (ix2 r j) + ·) (product_entry _ x h r j)

/-- The block stored at the first step of a row block is zero everywhere. -/
theorem zero_entry (r : Fin 512) (j : Fin 256) : k2_pay1 (F := Ideal) (ix2 r j) = 0 := by
  show Ideal.ofBits .f32 0x00000000#32 = 0
  exact Ideal.ofBits_zero_f32

/-- A vector of 512 entries laid out as a column reads, at `(r, 0)`, its entry `r`. -/
theorem column_entry {α : Type} (x : (⟨1, ![512]⟩ : Shape).Idx → α) (h : (⟨1, ![512]⟩ : Shape).ShapeCasts ⟨2, ![512, 1]⟩)
    (r : Fin 512) (u : Fin 1) : shapeCast ⟨2, ![512, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column of 512 entries repeated along 256 lanes reads, at `(r, j)`, the column's entry `r`. -/
theorem lanes_entry {α : Type} (x : (⟨2, ![512, 1]⟩ : Shape).Idx → α) (h : (⟨2, ![512, 1]⟩ : Shape).Broadcasts ⟨2, ![512, 256]⟩)
    (r : Fin 512) (j : Fin 256) : broadcastTo ⟨2, ![512, 256]⟩ x h (ix2 r j) = x (ix2 r (0 : Fin 1)) :=
  broadcastTo_apply x h _ _ (fun a => by
    match a with
    | ⟨0, _⟩ => rfl
    | ⟨1, _⟩ => rfl)

/-- The lane sum of a block at row `r`. -/
theorem lane_sum_entry (src : FVec Ideal S512x256 .f32) (hφ : FKind.Formats .f32)
    (hacc : (0x00000000#32 : BitVec 32) = 0x00000000#32) (r : Fin 512) :
    multiReduction (F := Ideal) .add [1] S512 src 0x00000000#32 reduces_S512x256_S512 hφ hacc (ix1 r)
      = ∑ l : Fin 256, src (ix2 r l) := by
  refine (Ideal.multiReduction_add_single src 0x00000000#32 reduces_S512x256_S512 hφ hacc (ix1 r)).trans ?_
  refine Finset.sum_congr rfl fun l _ => congrArg src ?_
  funext a
  match a with
  | ⟨0, _⟩ => rfl
  | ⟨1, _⟩ => rfl

/-- The last step's closing operation at an entry: the entry times the reciprocal square root of its row's squared
    length, the length clamped below at ε. -/
theorem unit_entry (v : Vec Ideal S512x256 .f32) (r : Fin 512) (j : Fin 256) :
    k2_pay3 (F := Ideal) v (ix2 r j)
      = v (ix2 r j) * FloatOps.rsqrt (F := Ideal) (φ := .f32)
          (max (∑ l : Fin 256, v (ix2 r l) * v (ix2 r l)) (Ideal.ofBits .f32 0x24E69595#32)) := by
  unfold k2_pay3
  rw [shapeCast_self]
  refine congrArg (v (ix2 r j) * ·) ?_
  refine (lanes_entry _ _ r j).trans ?_
  refine congrArg (fun s => FloatOps.rsqrt (F := Ideal) (φ := .f32) (max s (Ideal.ofBits .f32 0x24E69595#32))) ?_
  refine (column_entry _ _ r 0).trans ?_
  exact lane_sum_entry (mulf v v) _ _ r

/-! ## What each of the three cases leaves in the output block -/

/-- The first step of a row block (k = 0) leaves: the zero block, read back, plus the product of the adjacency block
    with the 512 feature rows the step loads. -/
theorem first_left (c : Dev nD) (i : grid2.Coords) (a2 : Memref sig .tc .vmem S512x512 .f32) (h2 : a2.IsWhole)
    (a3 : Memref sig .tc .vmem S4096x256 .f32) (h3 : a3.IsWhole) (a4 : Memref sig .tc .vmem S512x256 .f32) (h4 : a4.IsWhole)
    (hc0 : cond2_0 i) (hc1 : ¬cond2_1 i) (x0 : Vec Ideal S512x512 .f32) (x1 : Vec Ideal S4096x256 .f32) :
    out2_A_2 (F := Ideal) c i a2 h2 a3 h3 a4 h4 hc0 hc1 x0 x1
      = k2_pay2 (View.ld x1 (Rect.unit (k2_off1 i) S512x256.size (k2_off1_inb i))) (k2_pay1 (F := Ideal)) x0 := by
  unfold out2_A_2
  rw [View.read_writes_eq_canon _ _ _ (cover2_A_2 c i a2 h2 a3 h3 a4 h4 hc0 hc1 x0 x1)]
  unfold kernelRun2_A
  dsimp only
  sl_unfold_run_names
  rw [View.canon_cons_unit_zero (S := S512x256) zero_offsets, View.readCov_unit_zero (S := S512x256) _ zero_offsets]
  simp only [View.readAt_eq_ld, h2.read_unread, h3.read_unread, View.ld_unit_zero (S := S512x512) zero_offsets]

/-- A middle step (0 < k < 7) leaves: the block held before plus this step's product. -/
theorem middle_left (c : Dev nD) (i : grid2.Coords) (a2 : Memref sig .tc .vmem S512x512 .f32) (h2 : a2.IsWhole)
    (a3 : Memref sig .tc .vmem S4096x256 .f32) (h3 : a3.IsWhole) (a4 : Memref sig .tc .vmem S512x256 .f32) (h4 : a4.IsWhole)
    (hc0 : ¬cond2_0 i) (hc1 : ¬cond2_1 i) (x0 : Vec Ideal S512x512 .f32) (x1 : Vec Ideal S4096x256 .f32)
    (xo : Vec Ideal S512x256 .f32) :
    out2_B_2 (F := Ideal) c i a2 h2 a3 h3 a4 h4 hc0 hc1 x0 x1 xo
      = k2_pay2 (View.ld x1 (Rect.unit (k2_off1 i) S512x256.size (k2_off1_inb i))) xo x0 := by
  unfold out2_B_2
  rw [View.read_writes_eq_canon _ _ _ (cover2_B_2 c i a2 h2 a3 h3 a4 h4 hc0 hc1 x0 x1 xo)]
  unfold kernelRun2_B
  dsimp only
  sl_unfold_run_names
  rw [View.canon_unit_zero (S := S512x256) zero_offsets]
  simp only [View.readAt_eq_ld, h2.read_unread, h3.read_unread, h4.read_unread, View.ld_unit_zero (S := S512x512) zero_offsets,
    View.ld_unit_zero (S := S512x256) zero_offsets]

/-- The last step (k = 7) leaves: the block held before plus this step's product, read back and scaled row by row. -/
theorem last_left (c : Dev nD) (i : grid2.Coords) (a2 : Memref sig .tc .vmem S512x512 .f32) (h2 : a2.IsWhole)
    (a3 : Memref sig .tc .vmem S4096x256 .f32) (h3 : a3.IsWhole) (a4 : Memref sig .tc .vmem S512x256 .f32) (h4 : a4.IsWhole)
    (hc0 : ¬cond2_0 i) (hc1 : cond2_1 i) (x0 : Vec Ideal S512x512 .f32) (x1 : Vec Ideal S4096x256 .f32)
    (xo : Vec Ideal S512x256 .f32) :
    out2_C_2 (F := Ideal) c i a2 h2 a3 h3 a4 h4 hc0 hc1 x0 x1 xo
      = k2_pay3 (k2_pay2 (View.ld x1 (Rect.unit (k2_off1 i) S512x256.size (k2_off1_inb i))) xo x0) := by
  unfold out2_C_2
  rw [View.read_writes_eq_canon _ _ _ (cover2_C_2 c i a2 h2 a3 h3 a4 h4 hc0 hc1 x0 x1 xo)]
  unfold kernelRun2_C
  dsimp only
  sl_unfold_run_names
  rw [View.canon_cons_unit_zero (S := S512x256) zero_offsets, View.readCov_unit_zero (S := S512x256) _ zero_offsets]
  simp only [View.readAt_eq_ld, h2.read_unread, h3.read_unread, h4.read_unread, View.ld_unit_zero (S := S512x512) zero_offsets,
    View.ld_unit_zero (S := S512x256) zero_offsets]

/-! ## The blocks a point works on -/

/-- Point `t = 8 i + k` works on row block `i` of the result, on block `(i, k)` of the adjacency matrix, and on the 512
    feature rows from row `512 k` of the whole feature array. -/
theorem step_indices : ∀ t : Fin cfg2.N, win2_0.index t (0 : Fin 2) = t.val / 8 ∧ win2_0.index t (1 : Fin 2) = t.val % 8
    ∧ win2_1.index t (0 : Fin 2) = 0 ∧ win2_1.index t (1 : Fin 2) = 0
    ∧ win2_2.index t (0 : Fin 2) = t.val / 8 ∧ win2_2.index t (1 : Fin 2) = 0
    ∧ k2_off1 (grid2.coords t) (0 : Fin 2) = 512 * (t.val % 8) ∧ k2_off1 (grid2.coords t) (1 : Fin 2) = 0 :=
  (by decide +kernel : ∀ t : Fin grid2.N, _)

/-- The adjacency block at point `t`, at `(r, q)`: the adjacency matrix at row `512 (t / 8) + r`, column `512 (t % 8) + q`. -/
theorem adj_block_entry (c : Dev nD) (t : Fin cfg2.N) (r q : Fin 512) (R Q : Fin 4096)
    (hR : R.val = 512 * (t.val / 8) + r.val) (hQ : Q.val = 512 * (t.val % 8) + q.val) :
    (iblk2 V c 0 t : Vec Ideal S512x512 .f32) (ix2 r q) = V c main_arg1 (ix2 R Q) := by
  obtain ⟨e00, e01, e10, e11, e20, e21, o0, o1⟩ := step_indices t
  show V c main_arg1 (((cfg2.win 0).blk t).view.emb (ix2 r q)) = _
  refine congrArg (V c main_arg1) (funext fun a => Fin.ext ?_)
  match a with
  | ⟨0, _⟩ => show win2_0.index t (0 : Fin 2) * 512 + 1 * r.val = R.val; rw [e00, hR]; omega
  | ⟨1, _⟩ => show win2_0.index t (1 : Fin 2) * 512 + 1 * q.val = Q.val; rw [e01, hQ]; omega

/-- The 512 feature rows the step loads, at `(q, j)`: the feature array at row `512 (t % 8) + q`, column `j`. -/
theorem feat_rows_entry (c : Dev nD) (t : Fin cfg2.N) (q : Fin 512) (j : Fin 256) (Q : Fin 4096)
    (hQ : Q.val = 512 * (t.val % 8) + q.val) :
    View.ld (iblk2 V c 1 t : Vec Ideal S4096x256 .f32)
        (Rect.unit (k2_off1 (grid2.coords t)) S512x256.size (k2_off1_inb (grid2.coords t))) (ix2 q j)
      = V c main_v1 (ix2 Q j) := by
  obtain ⟨e00, e01, e10, e11, e20, e21, o0, o1⟩ := step_indices t
  show V c main_v1 (((cfg2.win 1).blk t).view.emb
    ((Rect.unit (s := S4096x256) (k2_off1 (grid2.coords t)) S512x256.size (k2_off1_inb (grid2.coords t))).idx (ix2 q j))) = _
  refine congrArg (V c main_v1) (funext fun a => Fin.ext ?_)
  match a with
  | ⟨0, _⟩ => show win2_1.index t (0 : Fin 2) * 4096 + 1 * (k2_off1 (grid2.coords t) (0 : Fin 2) + 1 * q.val) = Q.val; rw [e10, o0, hQ]; omega
  | ⟨1, _⟩ => show win2_1.index t (1 : Fin 2) * 256 + 1 * (k2_off1 (grid2.coords t) (1 : Fin 2) + 1 * j.val) = j.val; rw [e11, o1]; omega

/-! ## The running sum over the runs of 512 -/

/-- The sum of A (R, ·) · H (·, j) over the first `k` runs of 512 columns: what entry `(r, j)` of the output block holds
    after `k` steps, `R` being row `r` of the row block as a row of the whole array. -/
def partialSum (a : Cert.Gcn.Adj.Idx → EReal) (h : Cert.Gcn.Nodes.Idx → EReal) (k : ℕ) (R : Fin 4096) (j : Fin 256) : EReal :=
  ∑ b ∈ Finset.univ.filter (fun b : Fin 8 => b.val < k),
    ∑ q : Fin 512, a (ix2 R (Cert.Gcn.runIdx b q)) * h (ix2 (Cert.Gcn.runIdx b q) j)

/-- Before any step the sum is empty. -/
theorem partialSum_zero (a : Cert.Gcn.Adj.Idx → EReal) (h : Cert.Gcn.Nodes.Idx → EReal) (R : Fin 4096) (j : Fin 256) :
    partialSum a h 0 R j = 0 := by
  unfold partialSum
  simp

/-- One more step adds one more run. -/
theorem partialSum_succ (a : Cert.Gcn.Adj.Idx → EReal) (h : Cert.Gcn.Nodes.Idx → EReal) (k : ℕ) (hk : k < 8)
    (R : Fin 4096) (j : Fin 256) :
    partialSum a h (k + 1) R j
      = partialSum a h k R j
        + ∑ q : Fin 512, a (ix2 R (Cert.Gcn.runIdx ⟨k, hk⟩ q)) * h (ix2 (Cert.Gcn.runIdx ⟨k, hk⟩ q) j) :=
  Cert.Gcn.sum_runs_succ
    (fun b : Fin 8 => ∑ q : Fin 512, a (ix2 R (Cert.Gcn.runIdx b q)) * h (ix2 (Cert.Gcn.runIdx b q) j)) k hk

/-- All eight runs together are the whole contraction: the entry of A · H. -/
theorem partialSum_full (a : Cert.Gcn.Adj.Idx → EReal) (h : Cert.Gcn.Nodes.Idx → EReal) (R : Fin 4096) (j : Fin 256) :
    partialSum a h 8 R j = Cert.Gcn.aggr a h (ix2 R j) := by
  unfold partialSum
  rw [Finset.filter_true_of_mem (fun b _ => b.isLt)]
  exact Cert.Gcn.sum_runs (fun k : Fin 4096 => a (ix2 R k) * h (ix2 k j))

/-- One step at point `t`, at an entry: if the block held before has the first `t % 8` runs, the block the step
    computes has the first `t % 8 + 1`. -/
theorem step_value (c : Dev nD) (t : Fin cfg2.N) (acc : Vec Ideal S512x256 .f32) (r : Fin 512) (j : Fin 256) (R : Fin 4096)
    (hR : R.val = 512 * (t.val / 8) + r.val)
    (hacc : acc (ix2 r j) = partialSum (V c main_arg1) (V c main_v1) (t.val % 8) R j) :
    k2_pay2 (F := Ideal)
        (View.ld (iblk2 V c 1 t : Vec Ideal S4096x256 .f32)
          (Rect.unit (k2_off1 (grid2.coords t)) S512x256.size (k2_off1_inb (grid2.coords t))))
        acc (iblk2 V c 0 t) (ix2 r j)
      = partialSum (V c main_arg1) (V c main_v1) (t.val % 8 + 1) R j := by
  have hk : t.val % 8 < 8 := Nat.mod_lt _ (by decide)
  refine (step_entry _ acc (iblk2 V c 0 t) r j).trans ?_
  rw [hacc, partialSum_succ _ _ _ hk]
  refine congrArg (partialSum (V c main_arg1) (V c main_v1) (t.val % 8) R j + ·) ?_
  refine Finset.sum_congr rfl fun q _ => ?_
  exact congrArg₂ (fun x y : EReal => x * y)
    (adj_block_entry V c t r q R (Cert.Gcn.runIdx ⟨t.val % 8, hk⟩ q) hR rfl)
    (feat_rows_entry V c t q j (Cert.Gcn.runIdx ⟨t.val % 8, hk⟩ q) rfl)

/-- The closing operation on a block whose row `r` is row `R` of a whole array `g`: the entry of `g` with its rows
    brought to unit length. -/
theorem unit_of_rows (v : Vec Ideal S512x256 .f32) (g : Cert.Gcn.Nodes.Idx → EReal) (r : Fin 512) (R : Fin 4096) (j : Fin 256)
    (hv : ∀ l : Fin 256, v (ix2 r l) = g (ix2 R l)) :
    k2_pay3 (F := Ideal) v (ix2 r j) = Cert.Gcn.unitRows (Ideal.ofBits .f32 0x24E69595#32) g (ix2 R j) := by
  refine (unit_entry v r j).trans ?_
  show _ = g (ix2 R j) * FloatOps.rsqrt (F := Ideal) (φ := .f32)
    (max (∑ l : Fin 256, g (ix2 R l) * g (ix2 R l)) (Ideal.ofBits .f32 0x24E69595#32))
  rw [hv j, Finset.sum_congr rfl (fun l _ => show v (ix2 r l) * v (ix2 r l) = g (ix2 R l) * g (ix2 R l) by rw [hv l])]

/-! ## The output block, point by point -/

/-- At the first step of a row block (k = 0) the output block holds the first run. -/
theorem first_value (c : Dev nD) (t : Fin cfg2.N) (h0 : t.val % 8 = 0) (h1 : ¬t.val % 8 = 7) (r : Fin 512) (j : Fin 256)
    (R : Fin 4096) (hR : R.val = 512 * (t.val / 8) + r.val) :
    outsAt2 (F := Ideal) V c t.val t.isLt (ix2 r j) = partialSum (V c main_arg1) (V c main_v1) (t.val % 8 + 1) R j := by
  rw [outsAt2_A V c t h0 h1,
    first_left c (grid2.coords t) (ms2_0 t) (hs2_0 t) (ms2_1 t) (hs2_1 t) (ms2_2 t) (hs2_2 t) ((hcond2_0 t).mpr h0)
      (fun h => h1 ((hcond2_1 t).mp h)) (iblk2 V c 0 t) (iblk2 V c 1 t)]
  refine step_value V c t (k2_pay1 (F := Ideal)) r j R hR ?_
  rw [h0, partialSum_zero]
  exact zero_entry r j

/-- At a middle step (0 < k < 7) it holds one more run than after the point before. -/
theorem middle_value (c : Dev nD) (t : Fin cfg2.N) (h0 : ¬t.val % 8 = 0) (h1 : ¬t.val % 8 = 7) (r : Fin 512) (j : Fin 256)
    (R : Fin 4096) (hR : R.val = 512 * (t.val / 8) + r.val)
    (hprev : outsAt2 (F := Ideal) V c (t.val - 1) (Nat.lt_of_le_of_lt (Nat.sub_le _ _) t.isLt) (ix2 r j)
      = partialSum (V c main_arg1) (V c main_v1) (t.val % 8) R j) :
    outsAt2 (F := Ideal) V c t.val t.isLt (ix2 r j) = partialSum (V c main_arg1) (V c main_v1) (t.val % 8 + 1) R j := by
  rw [outsAt2_B V c t h0 h1,
    middle_left c (grid2.coords t) (ms2_0 t) (hs2_0 t) (ms2_1 t) (hs2_1 t) (ms2_2 t) (hs2_2 t) (fun h => h0 ((hcond2_0 t).mp h))
      (fun h => h1 ((hcond2_1 t).mp h)) (iblk2 V c 0 t) (iblk2 V c 1 t)
      (outsAt2 V c (t.val - 1) (Nat.lt_of_le_of_lt (Nat.sub_le _ _) t.isLt))]
  exact step_value V c t _ r j R hR hprev

/-- At the last step (k = 7) the eighth run completes the sum and the rows are brought to unit length. -/
theorem last_value (c : Dev nD) (t : Fin cfg2.N) (h0 : ¬t.val % 8 = 0) (h1 : t.val % 8 = 7) (r : Fin 512) (j : Fin 256)
    (R : Fin 4096) (hR : R.val = 512 * (t.val / 8) + r.val)
    (hprev : ∀ l : Fin 256, outsAt2 (F := Ideal) V c (t.val - 1) (Nat.lt_of_le_of_lt (Nat.sub_le _ _) t.isLt) (ix2 r l)
      = partialSum (V c main_arg1) (V c main_v1) (t.val % 8) R l) :
    outsAt2 (F := Ideal) V c t.val t.isLt (ix2 r j)
      = Cert.Gcn.unitRows (Ideal.ofBits .f32 0x24E69595#32) (Cert.Gcn.aggr (V c main_arg1) (V c main_v1)) (ix2 R j) := by
  rw [outsAt2_C V c t h0 h1,
    last_left c (grid2.coords t) (ms2_0 t) (hs2_0 t) (ms2_1 t) (hs2_1 t) (ms2_2 t) (hs2_2 t) (fun h => h0 ((hcond2_0 t).mp h))
      ((hcond2_1 t).mpr h1) (iblk2 V c 0 t) (iblk2 V c 1 t)
      (outsAt2 V c (t.val - 1) (Nat.lt_of_le_of_lt (Nat.sub_le _ _) t.isLt))]
  refine unit_of_rows _ (Cert.Gcn.aggr (V c main_arg1) (V c main_v1)) r R j fun l => ?_
  refine (step_value V c t _ r l R hR (hprev l)).trans ?_
  rw [h1]
  exact partialSum_full _ _ R l

/-- After every point that is not the last of its row block, the output block holds the runs done so far: by
    induction on the point. -/
theorem partial_after (c : Dev nD) : ∀ (n : ℕ) (hn : n < cfg2.N), ¬n % 8 = 7 → ∀ (r : Fin 512) (j : Fin 256) (R : Fin 4096),
    R.val = 512 * (n / 8) + r.val →
    outsAt2 (F := Ideal) V c n hn (ix2 r j) = partialSum (V c main_arg1) (V c main_v1) (n % 8 + 1) R j
  | 0, hn, h7, r, j, R, hR => first_value V c ⟨0, hn⟩ rfl h7 r j R hR
  | n + 1, hn, h7, r, j, R, hR => by
    by_cases h0 : (n + 1) % 8 = 0
    · exact first_value V c ⟨n + 1, hn⟩ h0 h7 r j R hR
    · refine middle_value V c ⟨n + 1, hn⟩ h0 h7 r j R hR ?_
      have ih := partial_after c n (Nat.lt_of_succ_lt hn) (by omega) r j R (by omega)
      have e : n % 8 + 1 = (n + 1) % 8 := by omega
      rw [e] at ih
      exact ih

/-- After the last point of a row block the output block holds that row block of the unit-row array. -/
theorem final_value (c : Dev nD) (t : Fin cfg2.N) (h7 : t.val % 8 = 7) (r : Fin 512) (j : Fin 256) (R : Fin 4096)
    (hR : R.val = 512 * (t.val / 8) + r.val) :
    outsAt2 (F := Ideal) V c t.val t.isLt (ix2 r j)
      = Cert.Gcn.unitRows (Ideal.ofBits .f32 0x24E69595#32) (Cert.Gcn.aggr (V c main_arg1) (V c main_v1)) (ix2 R j) := by
  refine last_value V c t (by omega) h7 r j R hR fun l => ?_
  have ih := partial_after V c (t.val - 1) (Nat.lt_of_le_of_lt (Nat.sub_le _ _) t.isLt) (by omega) r l R (by omega)
  have e : (t.val - 1) % 8 + 1 = t.val % 8 := by omega
  rw [e] at ih
  exact ih

/-! ## From the blocks to the array -/

/-- What the last point of a row block writes back is that row block of the unit-row array. -/
theorem flushed_eq (c : Dev nD) (t : Fin cfg2.N) (hf : (cfg2.win 2).flush t = true) :
    (dat2 (F := Ideal) V c).flushed 2 t
      = ((cfg2.win 2).blk t).view.read (Elt Ideal) (Cert.Gcn.unitRows (Ideal.ofBits .f32 0x24E69595#32) (Cert.Gcn.aggr (V c main_arg1) (V c main_v1))) := by
  have h7 : t.val % 8 = 7 := (flush2_2 t).mp hf
  have hN : cfg2.N = 64 := N_2
  have ht : t.val < 64 := lt_of_lt_of_eq t.isLt hN
  obtain ⟨e00, e01, e10, e11, e20, e21, o0, o1⟩ := step_indices t
  show (cfg2.win 2).cut (grid2.coords t) ((dat2 (F := Ideal) V c).after 2 t) = _
  rw [after2_2]
  refine funext fun (y : S512x256.Idx) => ?_
  obtain ⟨r, j, rfl⟩ : ∃ (r : Fin 512) (j : Fin 256), y = ix2 r j := ⟨y 0, y 1, eq_ix2 y⟩
  show outsAt2 (F := Ideal) V c t.val t.isLt (ix2 r j) = (Cert.Gcn.unitRows (Ideal.ofBits .f32 0x24E69595#32) (Cert.Gcn.aggr (V c main_arg1) (V c main_v1))) (((cfg2.win 2).blk t).view.emb (ix2 r j))
  rw [final_value V c t h7 r j ⟨512 * (t.val / 8) + r.val, by omega⟩ rfl]
  refine congrArg (Cert.Gcn.unitRows (Ideal.ofBits .f32 0x24E69595#32) (Cert.Gcn.aggr (V c main_arg1) (V c main_v1))) (funext fun a => Fin.ext ?_)
  match a with
  | ⟨0, _⟩ => show 512 * (t.val / 8) + r.val = win2_2.index t (0 : Fin 2) * 512 + 1 * r.val; rw [e20]; omega
  | ⟨1, _⟩ => show j.val = win2_2.index t (1 : Fin 2) * 256 + 1 * j.val; rw [e21]; omega

/-- An index of the array is in point `t`'s block iff each coordinate is in the block's range on its axis. -/
theorem mem_block (t : Fin cfg2.N) (i : S4096x256.Idx) :
    i ∈ ((cfg2.win 2).blk t).view.set ↔ ∀ a : Fin 2, win2_2.index t a * S512x256.size a ≤ (i a).val ∧ (i a).val < win2_2.index t a * S512x256.size a + S512x256.size a := by
  show i ∈ ((View.whole main_v2).slice (win2_2.rect t)).set ↔ _
  rw [View.set_slice_whole, Rect.mem_set_unit]
  exact Iff.rfl

/-- The array after the region: row `i₀` lies in row block `i₀ / 512`, which the point `8 (i₀ / 512) + 7` writes back. -/
theorem unit_rows_everywhere (c : Dev nD) :
    (Gen.dat2 (F := Ideal) V c).arrAt 2 cfg2.N = (Cert.Gcn.unitRows (Ideal.ofBits .f32 0x24E69595#32) (Cert.Gcn.aggr (V c main_arg1) (V c main_v1))) :=
  (dat2 (F := Ideal) V c).arrAt_eq_of_cover 2 (Cert.Gcn.unitRows (Ideal.ofBits .f32 0x24E69595#32) (Cert.Gcn.aggr (V c main_arg1) (V c main_v1))) (fun t hf => flushed_eq V c t hf) fun i => by
    have hi0 : (i 0).val < 4096 := (i 0).isLt
    have hi1 : (i 1).val < 256 := (i 1).isLt
    have hN : cfg2.N = 64 := N_2
    refine ⟨⟨8 * ((i 0).val / 512) + 7, by rw [hN]; omega⟩, (flush2_2 _).mpr (by dsimp only; omega), ?_⟩
    rw [mem_block]
    obtain ⟨e00, e01, e10, e11, e20, e21, o0, o1⟩ := step_indices ⟨8 * ((i 0).val / 512) + 7, by rw [hN]; omega⟩
    intro a
    match a with
    | ⟨0, _⟩ => show win2_2.index _ (0 : Fin 2) * 512 ≤ (i 0).val ∧ (i 0).val < win2_2.index _ (0 : Fin 2) * 512 + 512; rw [e20]; dsimp only; omega
    | ⟨1, _⟩ => show win2_2.index _ (1 : Fin 2) * 256 ≤ (i 1).val ∧ (i 1).val < win2_2.index _ (1 : Fin 2) * 256 + 256; rw [e21]; omega

end Cert.ReferenceIdeal.Val.Unit

namespace Cert.ReferenceIdeal.Val

open Idealize.ShloMosaic Idealize.ShloMosaic.TcCoe Idealize.ShloMosaic.Tactic
open Idealize.SL Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-- The array the third region leaves is A · H with every row brought to unit length. -/
theorem unit_final (c : Dev nD) : (Gen.dat2 (F := Ideal) V c).arrAt 2 cfg2.N = Cert.Gcn.unitRows (Ideal.ofBits .f32 0x24E69595#32) (Cert.Gcn.aggr (V c main_arg1) (V c main_v1)) :=
  Unit.unit_rows_everywhere V c

end Cert.ReferenceIdeal.Val

end
-- ==== Proof.RCos.lean ====
/-
  The fourth region of the reference program, read as a whole-array formula: for every edge e the score row holds
  ((∑ l < 256, S (e, l) · D (e, l)) + 1) · ½, where S and D are the gathered source and destination rows.
  A grid point takes 128 edges at a time; the 128 points tile the 16384 edges.
-/
import proofs.«141059_g2000705357074448_pallasbulk_1090_2_alg».proof.Proof.Gen.ReferenceIdeal.Frame
import proofs.«141059_g2000705357074448_pallasbulk_1090_2_alg».proof.Proof.GcnSpec
import Idealize.ShloMosaic.Lib.Pipeline.Value

set_option maxRecDepth 16384

noncomputable section

namespace Cert.ReferenceIdeal.Val.Cos

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.ReferenceIdeal Cert.ReferenceIdeal.Gen

/-! ## One block of scores

A block of the score row is computed from the two blocks of 128 edge rows beside it: the products of a row of the
first with the same row of the second are summed over the 256 lanes, one is added, and the result is halved. -/

/-- The lane sum of a [128, 256] block at row `e` is the sum over that row's 256 entries. -/
theorem laneSum_apply (x : FVec Ideal S128x256 .f32) (h : S128x256.Reduces [1] S128) (hφ : FKind.Formats .f32)
    (hacc : (0x00000000#32 : BitVec 32) = 0x00000000#32) (e : Fin 128) :
    multiReduction (F := Ideal) .add [1] S128 x 0x00000000#32 h hφ hacc (ix1 e) = ∑ l : Fin 256, x (ix2 e l) := by
  refine (Ideal.multiReduction_add_single x 0x00000000#32 h hφ hacc (ix1 e)).trans ?_
  refine Finset.sum_congr rfl fun l _ => congrArg x ?_
  funext a; apply Fin.ext
  match a with
  | ⟨0, _⟩ => rfl
  | ⟨1, _⟩ => rfl

/-- A vector of 128 entries laid out as one row: entry (0, e) of the row is entry e of the vector. -/
theorem rowCast_apply (v : S128.Idx → EReal) (h : S128.ShapeCasts S1x128) (q : Fin 1) (e : Fin 128) :
    shapeCast S1x128 v h (ix2 q e) = v (ix1 e) := by
  refine shapeCast_apply v h (ix2 q e) (ix1 e) ?_
  rw [Shape.rowMajor_val_one, Shape.rowMajor_val_two]
  show e.val = q.val * 128 + e.val
  have := q.isLt; omega

/-- The stored block at (0, e): (⟨x0 e, x1 e⟩ + 1) · ½. -/
theorem cos_block (x0 x1 : Vec Ideal S128x256 .f32) (q : Fin 1) (e : Fin 128) :
    k3_pay1 (F := Ideal) x0 x1 (ix2 q e)
      = ((∑ l : Fin 256, x0 (ix2 e l) * x1 (ix2 e l)) + Ideal.ofBits .f32 0x3F800000#32) * Ideal.ofBits .f32 0x3F000000#32 := by
  unfold k3_pay1
  refine (rowCast_apply _ _ q e).trans ?_
  show (multiReduction (F := Ideal) .add [1] S128 _ 0x00000000#32 _ _ _ (ix1 e) + _) * _ = _
  rw [laneSum_apply]
  simp only [shapeCast_self]
  rfl

/-- The same against the whole arrays: when the two blocks are rows b·128 … b·128 + 127 of S and D, the stored block
    at y is the score of edge b·128 + y₁. -/
theorem cos_point (s d : Cert.Gcn.Edges.Idx → EReal) (x0 x1 : Vec Ideal S128x256 .f32) (b : Nat)
    (hx0 : ∀ (e : Fin 128) (l : Fin 256) (k : Fin 16384), k.val = b * 128 + e.val → x0 (ix2 e l) = s (ix2 k l))
    (hx1 : ∀ (e : Fin 128) (l : Fin 256) (k : Fin 16384), k.val = b * 128 + e.val → x1 (ix2 e l) = d (ix2 k l))
    (y : S1x128.Idx) (i : Cert.Gcn.Scores.Idx) (hi : (i 1).val = b * 128 + (y 1).val) :
    k3_pay1 (F := Ideal) x0 x1 y
      = Cert.Gcn.cosHalf (Ideal.ofBits .f32 0x3F800000#32) (Ideal.ofBits .f32 0x3F000000#32) s d i := by
  obtain ⟨q, e, rfl⟩ : ∃ (q : Fin 1) (e : Fin 128), y = ix2 q e := ⟨y 0, y 1, eq_ix2 y⟩
  have hi' : (i 1).val = b * 128 + e.val := hi
  rw [cos_block]
  unfold Cert.Gcn.cosHalf
  refine congrArg (fun z => (z + Ideal.ofBits .f32 0x3F800000#32) * Ideal.ofBits .f32 0x3F000000#32) ?_
  refine Finset.sum_congr rfl fun l _ => ?_
  rw [hx0 e l (i 1) hi', hx1 e l (i 1) hi']

/-! ## From blocks to the score row

Grid point t handles edges 128·t … 128·t + 127: it reads those rows of S and of D and writes columns
128·t … 128·t + 127 of the score row. The 128 points cover all 16384 columns. -/

theorem zeroOffsets : (![0, 0] : Fin 2 → Nat) = fun _ => 0 := funext fun a => by fin_cases a <;> rfl

/-- Where the three windows sit at point t: the edge blocks at block row t, column block 0; the score block at
    block row 0, block column t — the same t. -/
theorem cos_blocks_at : ∀ t : Fin cfg3.N, win3_0.index t (0 : Fin 2) = win3_2.index t (1 : Fin 2)
    ∧ win3_0.index t (1 : Fin 2) = 0
    ∧ win3_1.index t (0 : Fin 2) = win3_2.index t (1 : Fin 2)
    ∧ win3_1.index t (1 : Fin 2) = 0
    ∧ win3_2.index t (0 : Fin 2) = 0
    ∧ win3_2.index t (1 : Fin 2) ≤ 127 :=
  (by decide +kernel : ∀ t : Fin grid3.N, _)

/-- Every block of the score row is some point's. -/
theorem cos_block_onto : ∀ q : Fin 128, ∃ t : Fin cfg3.N, win3_2.index t = ![0, q.val] :=
  (by decide +kernel : ∀ q : Fin 128, ∃ t : Fin grid3.N, win3_2.index t = ![0, q.val])

variable (V : (c : Dev nD) → (b : Ref sig .tc) → Buf (Elt Ideal) ((c : Thread nD τ).loc b))

/-- What point t writes back is block t of the score row. -/
theorem cos_flushed (c : Dev nD) (t : Fin cfg3.N) :
    (Gen.dat3 (F := Ideal) V c).flushed 2 t = ((cfg3.win 2).blk t).view.read (Elt Ideal)
      (Cert.Gcn.cosHalf (Ideal.ofBits .f32 0x3F800000#32) (Ideal.ofBits .f32 0x3F000000#32) (V c main_v3) (V c main_v4)) := by
  show (cfg3.win 2).cut (grid3.coords t) ((Gen.dat3 (F := Ideal) V c).after 2 t) = _
  rw [after3_2]
  unfold out3_2
  rw [View.canon_unit_zero zeroOffsets]
  simp only [View.ld_unit_zero (S := S128x256) zeroOffsets]
  obtain ⟨e0, e1, e2, e3, e4, e5⟩ := cos_blocks_at t
  funext j
  refine cos_point (V c main_v3) (V c main_v4) (iblk3 V c 0 t) (iblk3 V c 1 t) (win3_2.index t (1 : Fin 2)) ?_ ?_ j
    (((cfg3.win 2).blk t).view.emb j) ?_
  · intro e l k hk
    show V c main_v3 (((cfg3.win 0).blk t).view.emb (ix2 e l)) = V c main_v3 (ix2 k l)
    refine congrArg (V c main_v3) (funext fun a => Fin.ext ?_)
    match a with
    | ⟨0, _⟩ => show win3_0.index t (0 : Fin 2) * 128 + 1 * e.val = k.val; omega
    | ⟨1, _⟩ => show win3_0.index t (1 : Fin 2) * 256 + 1 * l.val = l.val; omega
  · intro e l k hk
    show V c main_v4 (((cfg3.win 1).blk t).view.emb (ix2 e l)) = V c main_v4 (ix2 k l)
    refine congrArg (V c main_v4) (funext fun a => Fin.ext ?_)
    match a with
    | ⟨0, _⟩ => show win3_1.index t (0 : Fin 2) * 128 + 1 * e.val = k.val; omega
    | ⟨1, _⟩ => show win3_1.index t (1 : Fin 2) * 256 + 1 * l.val = l.val; omega
  · show win3_2.index t (1 : Fin 2) * 128 + 1 * (j 1).val = win3_2.index t (1 : Fin 2) * 128 + (j 1).val
    omega

/-- A column of the score row is in point t's block iff each coordinate is in the block's range on its axis. -/
theorem cos_mem_blk (t : Fin cfg3.N) (i : S1x16384.Idx) :
    i ∈ ((cfg3.win 2).blk t).view.set ↔ ∀ a : Fin 2, win3_2.index t a * S1x128.size a ≤ (i a).val ∧ (i a).val < win3_2.index t a * S1x128.size a + S1x128.size a := by
  show i ∈ ((View.whole main_v5).slice (win3_2.rect t)).set ↔ _
  rw [View.set_slice_whole, Rect.mem_set_unit]
  exact Iff.rfl

/-- Column e is written by the point whose block is e / 128. -/
theorem cos_cover (i : S1x16384.Idx) :
    ∃ t : Fin cfg3.N, (cfg3.win 2).flush t = true ∧ i ∈ ((cfg3.win 2).blk t).view.set := by
  have hi0 : (i 0).val < 1 := (i 0).isLt
  have hi1 : (i 1).val < 16384 := (i 1).isLt
  obtain ⟨t, ht⟩ := cos_block_onto ⟨(i 1).val / 128, by omega⟩
  have q0 : win3_2.index t (0 : Fin 2) = 0 := congrFun ht 0
  have q1 : win3_2.index t (1 : Fin 2) = (i 1).val / 128 := congrFun ht 1
  refine ⟨t, flush3_2 t, ?_⟩
  rw [cos_mem_blk]
  intro a
  match a with
  | ⟨0, _⟩ => show win3_2.index t (0 : Fin 2) * 1 ≤ (i 0).val ∧ (i 0).val < win3_2.index t (0 : Fin 2) * 1 + 1; omega
  | ⟨1, _⟩ => show win3_2.index t (1 : Fin 2) * 128 ≤ (i 1).val ∧ (i 1).val < win3_2.index t (1 : Fin 2) * 128 + 128; omega

end Cert.ReferenceIdeal.Val.Cos

namespace Cert.ReferenceIdeal.Val

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-- The score row after the region: (⟨S e, D e⟩ + 1) · ½ at every edge e. -/
theorem cos_final (c : Dev nD) : (Gen.dat3 (F := Ideal) V c).arrAt 2 cfg3.N = Cert.Gcn.cosHalf (Ideal.ofBits .f32 0x3F800000#32) (Ideal.ofBits .f32 0x3F000000#32) (V c main_v3) (V c main_v4) :=
  (Gen.dat3 (F := Ideal) V c).arrAt_eq_of_cover 2 _ (fun t _ => Cos.cos_flushed V c t) Cos.cos_cover

end Cert.ReferenceIdeal.Val

end
-- ==== Proof.KRun.lean ====
/-
  The run of the whole program with its RESULT kept: every weakly fair execution of @main terminates without a
  fault, the result array ends at the last boundary's contents `W7` — the fold of the four regions' write-backs and
  the host operations between them, from the launch memory — and the six argument arrays end as launched.
-/
import proofs.«141059_g2000705357074448_pallasbulk_1090_2_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' run read at the result as well as at the arguments: the last thread state holds every unscoped
    buffer at `W7`, and the result's buffer is one of them. -/
theorem run_result : θ_run defs (onTc (τ := τ) (main (F := F))) ⟨m, fun _ => 0, ρ⟩ (fun r => ∀ c : Dev nD,
      r.2.mem ((c.tc : Thread nD τ).loc main_v6) = W7 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v6 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Val

end
-- ==== Proof.RRun.lean ====
/-
  The run of the whole program with its RESULT kept: every weakly fair execution of @main terminates without a
  fault, the result array ends at the last boundary's contents `W7` — the fold of the four regions' write-backs and
  the host operations between them, from the launch memory — and the six argument arrays end as launched.
-/
import proofs.«141059_g2000705357074448_pallasbulk_1090_2_alg».proof.Proof.Gen.ReferenceIdeal.Frame

set_option maxRecDepth 16384

noncomputable section

namespace Cert.ReferenceIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' run read at the result as well as at the arguments: the last thread state holds every unscoped
    buffer at `W7`, and the result's buffer is one of them. -/
theorem run_result : θ_run defs (onTc (τ := τ) (main (F := F))) ⟨m, fun _ => 0, ρ⟩ (fun r => ∀ c : Dev nD,
      r.2.mem ((c.tc : Thread nD τ).loc main_v6) = W7 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v6 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.ReferenceIdeal.Val

end
-- ==== Proof.Take.lean ====
/-
  What the host computes between the third and the fourth region, and the whole program's result.

  `takeRows h idx` is jnp.take(h, idx, axis = 0) as jax lowers it: a negative index is first moved up by the number of
  rows (4096); row e of the result is row idx[e] of h when that wrapped index lies in [0, 4095], and a row of NaN
  patterns otherwise. Nothing below opens it: both programs apply the same function to the same arrays.

  `scores` is the program as one function of its six arguments: normalised two-layer node features, the two gathers,
  and the halved, shifted inner product per edge, laid out as a vector.
-/
import proofs.«141059_g2000705357074448_pallasbulk_1090_2_alg».proof.Proof.Gen.KernelIdeal
import proofs.«141059_g2000705357074448_pallasbulk_1090_2_alg».proof.Proof.GcnSpec

set_option maxRecDepth 16384

noncomputable section

namespace Cert.Gcn

open Idealize.ShloMosaic Cert.KernelIdeal Cert.KernelIdeal.Facts₀

/-- Rows of `h` picked by `idx`, out-of-range picks filled with the NaN pattern. -/
def takeRows (h : FVec Ideal S4096x256 .f32) (idx : IVec S16384 32) : FVec Ideal S16384x256 .f32 :=
  let wrapped := select (cmpi .slt idx (broadcastInDim S16384 ![] bcast_S_S16384 (constantI S_ 32 0#32)))
      (addi idx (broadcastInDim S16384 ![] bcast_S_S16384 (constantI S_ 32 4096#32))) idx
  let col := broadcastInDim S16384x1 ![0] bcast_S16384_S16384x1_0 wrapped
  let inRange := Host.reduce IntOp.andi
      (andi (cmpi .sge col (broadcastInDim S16384x1 ![] bcast_S_S16384x1 (constantI S_ 32 0#32)))
        (cmpi .sle col (broadcastInDim S16384x1 ![0, 1] bcast_S1x1_S16384x1_0_1
          (broadcastInDim S1x1 ![1] bcast_S1_S1x1_1 (constantI S1 32 4095#32)))))
      (constantI S_ 1 1#1) reducesTo_S16384x1_S16384_d1 h_S_
  select (broadcastInDim S16384x256 ![0] bcast_S16384_S16384x256_0 inRange)
    (Host.gather gather_S4096x256_S16384x1_S16384x256_1_0_n_n_0_1_1256 h col)
    (broadcastInDim S16384x256 ![] bcast_S_S16384x256 (constant (F := Ideal) S_ .f32 0x7FC00000#32))

/-- The unit-length node features: two rounds of neighbourhood aggregation, each row then scaled to length one
    (the squared length clamped below at the pattern of 1e-16). -/
def nodeFeatures (x : FVec Ideal S4096x256 .f32) (adj : FVec Ideal S4096x4096 .f32) (w1 w2 : FVec Ideal S256x256 .f32) :
    FVec Ideal S4096x256 .f32 :=
  unitRows (Ideal.ofBits .f32 0x24E69595#32)
    (aggr adj (hidden (Ideal.ofBits .f32 0x00000000#32) adj (xw x w1) w2))

/-- The edge scores before the last re-layout: ((⟨h_src, h_dst⟩ + 1) · ½) per edge, as one row. -/
def scoreRow (x : FVec Ideal S4096x256 .f32) (adj : FVec Ideal S4096x4096 .f32) (srcs drts : IVec S16384 32)
    (w1 w2 : FVec Ideal S256x256 .f32) : FVec Ideal S1x16384 .f32 :=
  cosHalf (Ideal.ofBits .f32 0x3F800000#32) (Ideal.ofBits .f32 0x3F000000#32)
    (takeRows (nodeFeatures x adj w1 w2) srcs) (takeRows (nodeFeatures x adj w1 w2) drts)

end Cert.Gcn

end
-- ==== Proof.KValue.lean ====
/-
  The result array as a function of the launch memory.

  The contents at each boundary of @main are a fold: a region replaces its output array by what its grid points
  wrote back and leaves every other buffer alone; a host stretch replaces the buffers its operations write. Read at
  the buffers that matter, with each region's array given by its whole-array formula (`Finals`):
    after region 0   main_v0 = X · W₁
    after region 1   main_v1 = max (A · main_v0) 0 · W₂
    after region 2   main_v2 = the rows of A · main_v1, each scaled to unit length
    after the two gathers   main_v3, main_v4 = the rows of main_v2 picked by the two index arrays
    after region 3   main_v5 = ((⟨main_v3 e, main_v4 e⟩ + 1) · ½) over the edges e, as one row
    after the last operation   main_v6 = that row re-laid as a vector.
  The argument arrays are read back to the launch memory at every step (no region and no host operation writes one).
-/
import proofs.«141059_g2000705357074448_pallasbulk_1090_2_alg».proof.Proof.Gen.KernelIdeal.Frame
import proofs.«141059_g2000705357074448_pallasbulk_1090_2_alg».proof.Proof.Take
import Idealize.ShloMosaic.Lib.StableHlo.Run

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

/-- Each region's output array after its last grid point, as one formula of the arrays the region finds at entry. -/
structure Finals : Prop where
  xw : ∀ (V : (c : Dev nD) → (b : Ref sig .tc) → Buf (Elt Ideal) ((c : Thread nD τ).loc b)) (c : Dev nD),
    (Gen.dat0 (F := Ideal) V c).arrAt 2 cfg0.N = Cert.Gcn.xw (V c main_arg0) (V c main_arg4)
  hidden : ∀ (V : (c : Dev nD) → (b : Ref sig .tc) → Buf (Elt Ideal) ((c : Thread nD τ).loc b)) (c : Dev nD),
    (Gen.dat1 (F := Ideal) V c).arrAt 3 cfg1.N
      = Cert.Gcn.hidden (Ideal.ofBits .f32 0x00000000#32) (V c main_arg1) (V c main_v0) (V c main_arg5)
  unit : ∀ (V : (c : Dev nD) → (b : Ref sig .tc) → Buf (Elt Ideal) ((c : Thread nD τ).loc b)) (c : Dev nD),
    (Gen.dat2 (F := Ideal) V c).arrAt 2 cfg2.N
      = Cert.Gcn.unitRows (Ideal.ofBits .f32 0x24E69595#32) (Cert.Gcn.aggr (V c main_arg1) (V c main_v1))
  cos : ∀ (V : (c : Dev nD) → (b : Ref sig .tc) → Buf (Elt Ideal) ((c : Thread nD τ).loc b)) (c : Dev nD),
    (Gen.dat3 (F := Ideal) V c).arrAt 2 cfg3.N
      = Cert.Gcn.cosHalf (Ideal.ofBits .f32 0x3F800000#32) (Ideal.ofBits .f32 0x3F000000#32) (V c main_v3) (V c main_v4)

variable (m : (ℓ : Loc nD τ sig) → Buf (Elt Ideal) ℓ) (ρ : Dev nD → PrngReg) (c : Dev nD)

/-- A host stretch leaves a buffer none of its operations writes as it was. -/
macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The two gathers and the last re-layout, on any contents -/

theorem take_srcs (W : Valuation τ sig (Elt Ideal)) :
    StableHlo.after (hostOps3 (F := Ideal)) W (Proc.devRef .tc main_v3)
      = Cert.Gcn.takeRows (W (Proc.devRef .tc main_v2)) (W (Proc.devRef .tc main_arg2)) := by
  unfold Cert.Gcn.takeRows
  after_results_simp
  simp only [StableHlo.TRef.ofBuf, StableHlo.TRef.toBuf, cast_cast, cast_eq]

theorem take_drts (W : Valuation τ sig (Elt Ideal)) :
    StableHlo.after (hostOps3_1 (F := Ideal)) W (Proc.devRef .tc main_v4)
      = Cert.Gcn.takeRows (W (Proc.devRef .tc main_v2)) (W (Proc.devRef .tc main_arg3)) := by
  unfold Cert.Gcn.takeRows
  after_results_simp
  simp only [StableHlo.TRef.ofBuf, StableHlo.TRef.toBuf, cast_cast, cast_eq]

theorem relayout (W : Valuation τ sig (Elt Ideal)) :
    StableHlo.after (hostOps4 (F := Ideal)) W (Proc.devRef .tc main_v6)
      = shapeCast S16384 (W (Proc.devRef .tc main_v5)) shapeCasts_S1x16384_S16384 := by
  after_results
  rfl

/-! ## The arguments, read back to the launch memory at the boundaries where they are used -/

theorem W1_arg1 : W1 m ρ c (Proc.devRef .tc main_arg1) = m ((c : Thread nD τ).loc main_arg1) := W1_of_ne m ρ c main_arg1 (by decide)
theorem W1_arg5 : W1 m ρ c (Proc.devRef .tc main_arg5) = m ((c : Thread nD τ).loc main_arg5) := W1_of_ne m ρ c main_arg5 (by decide)
theorem W2_arg1 : W2 m ρ c (Proc.devRef .tc main_arg1) = m ((c : Thread nD τ).loc main_arg1) :=
  ((W2_arr m ρ c 0).trans (((dat1 (V1 m ρ) c).arrAt_in 0 rfl _).trans (A_eq1 (V1 m ρ) c 0))).trans (W1_arg1 m ρ c)
theorem W3_arg2 : W3 m ρ c (Proc.devRef .tc main_arg2) = m ((c : Thread nD τ).loc main_arg2) :=
  (W3_of_ne m ρ c main_arg2 (by decide)).trans ((W2_of_ne m ρ c main_arg2 (by decide)).trans (W1_of_ne m ρ c main_arg2 (by decide)))
theorem W3_arg3 : W3 m ρ c (Proc.devRef .tc main_arg3) = m ((c : Thread nD τ).loc main_arg3) :=
  (W3_of_ne m ρ c main_arg3 (by decide)).trans ((W2_of_ne m ρ c main_arg3 (by decide)).trans (W1_of_ne m ρ c main_arg3 (by decide)))

/-! ## The regions' arrays along the fold -/

theorem v0_eq (H : Finals) : W1 m ρ c (Proc.devRef .tc main_v0)
    = Cert.Gcn.xw (m ((c : Thread nD τ).loc main_arg0)) (m ((c : Thread nD τ).loc main_arg4)) :=
  (W1_arr m ρ c 2).trans (H.xw (V0 m ρ) c)

theorem v1_eq (H : Finals) : W2 m ρ c (Proc.devRef .tc main_v1)
    = Cert.Gcn.hidden (Ideal.ofBits .f32 0x00000000#32) (m ((c : Thread nD τ).loc main_arg1))
        (Cert.Gcn.xw (m ((c : Thread nD τ).loc main_arg0)) (m ((c : Thread nD τ).loc main_arg4)))
        (m ((c : Thread nD τ).loc main_arg5)) := by
  refine ((W2_arr m ρ c 3).trans (H.hidden (V1 m ρ) c)).trans ?_
  show Cert.Gcn.hidden _ (W1 m ρ c (Proc.devRef .tc main_arg1)) (W1 m ρ c (Proc.devRef .tc main_v0)) (W1 m ρ c (Proc.devRef .tc main_arg5)) = _
  rw [W1_arg1, W1_arg5, v0_eq m ρ c H]

theorem v2_eq (H : Finals) : W3 m ρ c (Proc.devRef .tc main_v2)
    = Cert.Gcn.nodeFeatures (m ((c : Thread nD τ).loc main_arg0)) (m ((c : Thread nD τ).loc main_arg1))
        (m ((c : Thread nD τ).loc main_arg4)) (m ((c : Thread nD τ).loc main_arg5)) := by
  refine ((W3_arr m ρ c 2).trans (H.unit (V2 m ρ) c)).trans ?_
  show Cert.Gcn.unitRows _ (Cert.Gcn.aggr (W2 m ρ c (Proc.devRef .tc main_arg1)) (W2 m ρ c (Proc.devRef .tc main_v1))) = _
  rw [W2_arg1, v1_eq m ρ c H]
  rfl

theorem v3_eq (H : Finals) : W5 m ρ c (Proc.devRef .tc main_v3)
    = Cert.Gcn.takeRows (Cert.Gcn.nodeFeatures (m ((c : Thread nD τ).loc main_arg0)) (m ((c : Thread nD τ).loc main_arg1))
        (m ((c : Thread nD τ).loc main_arg4)) (m ((c : Thread nD τ).loc main_arg5))) (m ((c : Thread nD τ).loc main_arg2)) := by
  have keep : W5 m ρ c (Proc.devRef .tc main_v3) = W4 m ρ c (Proc.devRef .tc main_v3) := by host_keeps hostOps3_1
  rw [keep]
  show StableHlo.after (hostOps3 (F := Ideal)) (W3 m ρ c) (Proc.devRef .tc main_v3) = _
  rw [take_srcs, v2_eq m ρ c H, W3_arg2]

theorem v4_eq (H : Finals) : W5 m ρ c (Proc.devRef .tc main_v4)
    = Cert.Gcn.takeRows (Cert.Gcn.nodeFeatures (m ((c : Thread nD τ).loc main_arg0)) (m ((c : Thread nD τ).loc main_arg1))
        (m ((c : Thread nD τ).loc main_arg4)) (m ((c : Thread nD τ).loc main_arg5))) (m ((c : Thread nD τ).loc main_arg3)) := by
  show StableHlo.after (hostOps3_1 (F := Ideal)) (W4 m ρ c) (Proc.devRef .tc main_v4) = _
  rw [take_drts]
  have k2 : W4 m ρ c (Proc.devRef .tc main_v2) = W3 m ρ c (Proc.devRef .tc main_v2) := by host_keeps hostOps3
  have k3 : W4 m ρ c (Proc.devRef .tc main_arg3) = W3 m ρ c (Proc.devRef .tc main_arg3) := by host_keeps hostOps3
  rw [k2, k3, v2_eq m ρ c H, W3_arg3]

/-- THE RESULT: the last boundary's contents at the result's buffer are the edge scores of the launch arguments. -/
theorem result_eq (H : Finals) : W7 m ρ c (Proc.devRef .tc main_v6)
    = shapeCast S16384 (Cert.Gcn.scoreRow (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))) shapeCasts_S1x16384_S16384 := by
  show StableHlo.after (hostOps4 (F := Ideal)) (W6 m ρ c) (Proc.devRef .tc main_v6) = _
  rw [relayout]
  have v5 : W6 m ρ c (Proc.devRef .tc main_v5) = Cert.Gcn.scoreRow (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
    refine ((W6_arr m ρ c 2).trans (H.cos (V5 m ρ) c)).trans ?_
    show Cert.Gcn.cosHalf _ _ (W5 m ρ c (Proc.devRef .tc main_v3)) (W5 m ρ c (Proc.devRef .tc main_v4)) = _
    rw [v3_eq m ρ c H, v4_eq m ρ c H]
    rfl
  rw [v5]

end Cert.KernelIdeal.Val

end
-- ==== Proof.RValue.lean ====
/-
  The result array as a function of the launch memory.

  The contents at each boundary of @main are a fold: a region replaces its output array by what its grid points
  wrote back and leaves every other buffer alone; a host stretch replaces the buffers its operations write. Read at
  the buffers that matter, with each region's array given by its whole-array formula (`Finals`):
    after region 0   main_v0 = X · W₁
    after region 1   main_v1 = max (A · main_v0) 0 · W₂
    after region 2   main_v2 = the rows of A · main_v1, each scaled to unit length
    after the two gathers   main_v3, main_v4 = the rows of main_v2 picked by the two index arrays
    after region 3   main_v5 = ((⟨main_v3 e, main_v4 e⟩ + 1) · ½) over the edges e, as one row
    after the last operation   main_v6 = that row re-laid as a vector.
  The argument arrays are read back to the launch memory at every step (no region and no host operation writes one).
-/
import proofs.«141059_g2000705357074448_pallasbulk_1090_2_alg».proof.Proof.Gen.ReferenceIdeal.Frame
import proofs.«141059_g2000705357074448_pallasbulk_1090_2_alg».proof.Proof.Take
import Idealize.ShloMosaic.Lib.StableHlo.Run

set_option maxRecDepth 16384

noncomputable section

namespace Cert.ReferenceIdeal.Val

open Idealize.ShloMosaic Idealize.ShloMosaic.TcCoe Idealize.ShloMosaic.Tactic
open Idealize.SL Idealize.SL.Sem
open Idealize.ShloMosaic.Pipeline (Dat Cfg Window)
open Cert.ReferenceIdeal Cert.ReferenceIdeal.Gen

/-- Each region's output array after its last grid point, as one formula of the arrays the region finds at entry. -/
structure Finals : Prop where
  xw : ∀ (V : (c : Dev nD) → (b : Ref sig .tc) → Buf (Elt Ideal) ((c : Thread nD τ).loc b)) (c : Dev nD),
    (Gen.dat0 (F := Ideal) V c).arrAt 2 cfg0.N = Cert.Gcn.xw (V c main_arg0) (V c main_arg4)
  hidden : ∀ (V : (c : Dev nD) → (b : Ref sig .tc) → Buf (Elt Ideal) ((c : Thread nD τ).loc b)) (c : Dev nD),
    (Gen.dat1 (F := Ideal) V c).arrAt 3 cfg1.N
      = Cert.Gcn.hidden (Ideal.ofBits .f32 0x00000000#32) (V c main_arg1) (V c main_v0) (V c main_arg5)
  unit : ∀ (V : (c : Dev nD) → (b : Ref sig .tc) → Buf (Elt Ideal) ((c : Thread nD τ).loc b)) (c : Dev nD),
    (Gen.dat2 (F := Ideal) V c).arrAt 2 cfg2.N
      = Cert.Gcn.unitRows (Ideal.ofBits .f32 0x24E69595#32) (Cert.Gcn.aggr (V c main_arg1) (V c main_v1))
  cos : ∀ (V : (c : Dev nD) → (b : Ref sig .tc) → Buf (Elt Ideal) ((c : Thread nD τ).loc b)) (c : Dev nD),
    (Gen.dat3 (F := Ideal) V c).arrAt 2 cfg3.N
      = Cert.Gcn.cosHalf (Ideal.ofBits .f32 0x3F800000#32) (Ideal.ofBits .f32 0x3F000000#32) (V c main_v3) (V c main_v4)

variable (m : (ℓ : Loc nD τ sig) → Buf (Elt Ideal) ℓ) (ρ : Dev nD → PrngReg) (c : Dev nD)

/-- A host stretch leaves a buffer none of its operations writes as it was. -/
macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The two gathers and the last re-layout, on any contents -/

theorem take_srcs (W : Valuation τ sig (Elt Ideal)) :
    StableHlo.after (hostOps3 (F := Ideal)) W (Proc.devRef .tc main_v3)
      = Cert.Gcn.takeRows (W (Proc.devRef .tc main_v2)) (W (Proc.devRef .tc main_arg2)) := by
  unfold Cert.Gcn.takeRows
  after_results_simp
  simp only [StableHlo.TRef.ofBuf, StableHlo.TRef.toBuf, cast_cast, cast_eq]
  rfl

theorem take_drts (W : Valuation τ sig (Elt Ideal)) :
    StableHlo.after (hostOps3_1 (F := Ideal)) W (Proc.devRef .tc main_v4)
      = Cert.Gcn.takeRows (W (Proc.devRef .tc main_v2)) (W (Proc.devRef .tc main_arg3)) := by
  unfold Cert.Gcn.takeRows
  after_results_simp
  simp only [StableHlo.TRef.ofBuf, StableHlo.TRef.toBuf, cast_cast, cast_eq]
  rfl

theorem relayout (W : Valuation τ sig (Elt Ideal)) :
    StableHlo.after (hostOps4 (F := Ideal)) W (Proc.devRef .tc main_v6)
      = shapeCast S16384 (W (Proc.devRef .tc main_v5)) shapeCasts_S1x16384_S16384 := by
  after_results
  rfl

/-! ## The arguments, read back to the launch memory at the boundaries where they are used -/

theorem W1_arg1 : W1 m ρ c (Proc.devRef .tc main_arg1) = m ((c : Thread nD τ).loc main_arg1) := W1_of_ne m ρ c main_arg1 (by decide)
theorem W1_arg5 : W1 m ρ c (Proc.devRef .tc main_arg5) = m ((c : Thread nD τ).loc main_arg5) := W1_of_ne m ρ c main_arg5 (by decide)
theorem W2_arg1 : W2 m ρ c (Proc.devRef .tc main_arg1) = m ((c : Thread nD τ).loc main_arg1) :=
  ((W2_arr m ρ c 0).trans (((dat1 (V1 m ρ) c).arrAt_in 0 rfl _).trans (A_eq1 (V1 m ρ) c 0))).trans (W1_arg1 m ρ c)
theorem W3_arg2 : W3 m ρ c (Proc.devRef .tc main_arg2) = m ((c : Thread nD τ).loc main_arg2) :=
  (W3_of_ne m ρ c main_arg2 (by decide)).trans ((W2_of_ne m ρ c main_arg2 (by decide)).trans (W1_of_ne m ρ c main_arg2 (by decide)))
theorem W3_arg3 : W3 m ρ c (Proc.devRef .tc main_arg3) = m ((c : Thread nD τ).loc main_arg3) :=
  (W3_of_ne m ρ c main_arg3 (by decide)).trans ((W2_of_ne m ρ c main_arg3 (by decide)).trans (W1_of_ne m ρ c main_arg3 (by decide)))

/-! ## The regions' arrays along the fold -/

theorem v0_eq (H : Finals) : W1 m ρ c (Proc.devRef .tc main_v0)
    = Cert.Gcn.xw (m ((c : Thread nD τ).loc main_arg0)) (m ((c : Thread nD τ).loc main_arg4)) :=
  (W1_arr m ρ c 2).trans (H.xw (V0 m ρ) c)

theorem v1_eq (H : Finals) : W2 m ρ c (Proc.devRef .tc main_v1)
    = Cert.Gcn.hidden (Ideal.ofBits .f32 0x00000000#32) (m ((c : Thread nD τ).loc main_arg1))
        (Cert.Gcn.xw (m ((c : Thread nD τ).loc main_arg0)) (m ((c : Thread nD τ).loc main_arg4)))
        (m ((c : Thread nD τ).loc main_arg5)) := by
  refine ((W2_arr m ρ c 3).trans (H.hidden (V1 m ρ) c)).trans ?_
  show Cert.Gcn.hidden _ (W1 m ρ c (Proc.devRef .tc main_arg1)) (W1 m ρ c (Proc.devRef .tc main_v0)) (W1 m ρ c (Proc.devRef .tc main_arg5)) = _
  rw [W1_arg1, W1_arg5, v0_eq m ρ c H]

theorem v2_eq (H : Finals) : W3 m ρ c (Proc.devRef .tc main_v2)
    = Cert.Gcn.nodeFeatures (m ((c : Thread nD τ).loc main_arg0)) (m ((c : Thread nD τ).loc main_arg1))
        (m ((c : Thread nD τ).loc main_arg4)) (m ((c : Thread nD τ).loc main_arg5)) := by
  refine ((W3_arr m ρ c 2).trans (H.unit (V2 m ρ) c)).trans ?_
  show Cert.Gcn.unitRows _ (Cert.Gcn.aggr (W2 m ρ c (Proc.devRef .tc main_arg1)) (W2 m ρ c (Proc.devRef .tc main_v1))) = _
  rw [W2_arg1, v1_eq m ρ c H]
  rfl

theorem v3_eq (H : Finals) : W5 m ρ c (Proc.devRef .tc main_v3)
    = Cert.Gcn.takeRows (Cert.Gcn.nodeFeatures (m ((c : Thread nD τ).loc main_arg0)) (m ((c : Thread nD τ).loc main_arg1))
        (m ((c : Thread nD τ).loc main_arg4)) (m ((c : Thread nD τ).loc main_arg5))) (m ((c : Thread nD τ).loc main_arg2)) := by
  have keep : W5 m ρ c (Proc.devRef .tc main_v3) = W4 m ρ c (Proc.devRef .tc main_v3) := by host_keeps hostOps3_1
  rw [keep]
  show StableHlo.after (hostOps3 (F := Ideal)) (W3 m ρ c) (Proc.devRef .tc main_v3) = _
  rw [take_srcs, v2_eq m ρ c H, W3_arg2]

theorem v4_eq (H : Finals) : W5 m ρ c (Proc.devRef .tc main_v4)
    = Cert.Gcn.takeRows (Cert.Gcn.nodeFeatures (m ((c : Thread nD τ).loc main_arg0)) (m ((c : Thread nD τ).loc main_arg1))
        (m ((c : Thread nD τ).loc main_arg4)) (m ((c : Thread nD τ).loc main_arg5))) (m ((c : Thread nD τ).loc main_arg3)) := by
  show StableHlo.after (hostOps3_1 (F := Ideal)) (W4 m ρ c) (Proc.devRef .tc main_v4) = _
  rw [take_drts]
  have k2 : W4 m ρ c (Proc.devRef .tc main_v2) = W3 m ρ c (Proc.devRef .tc main_v2) := by host_keeps hostOps3
  have k3 : W4 m ρ c (Proc.devRef .tc main_arg3) = W3 m ρ c (Proc.devRef .tc main_arg3) := by host_keeps hostOps3
  rw [k2, k3, v2_eq m ρ c H, W3_arg3]

/-- THE RESULT: the last boundary's contents at the result's buffer are the edge scores of the launch arguments. -/
theorem result_eq (H : Finals) : W7 m ρ c (Proc.devRef .tc main_v6)
    = shapeCast S16384 (Cert.Gcn.scoreRow (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))) shapeCasts_S1x16384_S16384 := by
  show StableHlo.after (hostOps4 (F := Ideal)) (W6 m ρ c) (Proc.devRef .tc main_v6) = _
  rw [relayout]
  have v5 : W6 m ρ c (Proc.devRef .tc main_v5) = Cert.Gcn.scoreRow (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
    refine ((W6_arr m ρ c 2).trans (H.cos (V5 m ρ) c)).trans ?_
    show Cert.Gcn.cosHalf _ _ (W5 m ρ c (Proc.devRef .tc main_v3)) (W5 m ρ c (Proc.devRef .tc main_v4)) = _
    rw [v3_eq m ρ c H, v4_eq m ρ c H]
    rfl
  rw [v5]

end Cert.ReferenceIdeal.Val

end
-- ==== Proof.lean ====
/-
  The claim: a two-layer graph-convolution link predictor written as four tiled kernels with the whole contraction
  of each matrix product inside one grid point, against the same predictor written with the contraction cut into
  blocks over a second grid axis and accumulated in place.

  Both compute, from node features X, a dense adjacency A, weights W₁ W₂ and two index arrays,
    H = unit-length rows of A · (max (A · (X · W₁)) 0 · W₂),   score e = (⟨H[src e], H[dst e]⟩ + 1) · ½.
  On the extended reals a change of float format is the identity, so the kernel's half-precision operands change
  nothing, and the only difference left is the order of summation: a sum over 4096 in one piece against eight
  consecutive partial sums of 512 added up one after the other from zero. Addition of extended reals is commutative
  and associative, so the two agree at every input; the precondition is never opened.

  The modules: GcnSpec (the five whole-array formulas and the regrouping of the sum), Take (the host's gathers and the
  program as one function), for each program one module per region (its output array after the last grid point is
  the region's formula of the arrays it found: KXw … KCos, RXw … RCos), the run with the result kept (KRun, RRun) and
  the fold of the boundaries' contents read at the result (KValue, RValue). Here the five claims are assembled.
-/
import proofs.«141059_g2000705357074448_pallasbulk_1090_2_alg».proof.Defs
import proofs.«141059_g2000705357074448_pallasbulk_1090_2_alg».proof.Proof.Gen.Kernel
import proofs.«141059_g2000705357074448_pallasbulk_1090_2_alg».proof.Proof.Gen.Kernel.Frame
import proofs.«141059_g2000705357074448_pallasbulk_1090_2_alg».proof.Proof.Gen.KernelIdeal
import proofs.«141059_g2000705357074448_pallasbulk_1090_2_alg».proof.Proof.Gen.KernelIdeal.Frame
import proofs.«141059_g2000705357074448_pallasbulk_1090_2_alg».proof.Proof.Gen.ReferenceIdeal
import proofs.«141059_g2000705357074448_pallasbulk_1090_2_alg».proof.Proof.Gen.ReferenceIdeal.Frame
import proofs.«141059_g2000705357074448_pallasbulk_1090_2_alg».proof.Proof.Gen.Pre_finite_inputs
import proofs.«141059_g2000705357074448_pallasbulk_1090_2_alg».proof.Proof.KXw
import proofs.«141059_g2000705357074448_pallasbulk_1090_2_alg».proof.Proof.KHidden
import proofs.«141059_g2000705357074448_pallasbulk_1090_2_alg».proof.Proof.KUnit
import proofs.«141059_g2000705357074448_pallasbulk_1090_2_alg».proof.Proof.KCos
import proofs.«141059_g2000705357074448_pallasbulk_1090_2_alg».proof.Proof.RXw
import proofs.«141059_g2000705357074448_pallasbulk_1090_2_alg».proof.Proof.RHidden
import proofs.«141059_g2000705357074448_pallasbulk_1090_2_alg».proof.Proof.RUnit
import proofs.«141059_g2000705357074448_pallasbulk_1090_2_alg».proof.Proof.RCos
import proofs.«141059_g2000705357074448_pallasbulk_1090_2_alg».proof.Proof.KRun
import proofs.«141059_g2000705357074448_pallasbulk_1090_2_alg».proof.Proof.RRun
import proofs.«141059_g2000705357074448_pallasbulk_1090_2_alg».proof.Proof.KValue
import proofs.«141059_g2000705357074448_pallasbulk_1090_2_alg».proof.Proof.RValue

set_option maxRecDepth 16384

noncomputable section

namespace Cert.Proof

open Idealize.ShloMosaic Idealize.SL.Sem

/-- The four kernel regions' arrays, each at its formula. -/
theorem kernelFinals : Cert.KernelIdeal.Val.Finals :=
  ⟨Cert.KernelIdeal.Val.xw_final, Cert.KernelIdeal.Val.hidden_final, Cert.KernelIdeal.Val.unit_final,
    Cert.KernelIdeal.Val.cos_final⟩

/-- The four reference regions' arrays, each at the same formula. -/
theorem referenceFinals : Cert.ReferenceIdeal.Val.Finals :=
  ⟨Cert.ReferenceIdeal.Val.xw_final, Cert.ReferenceIdeal.Val.hidden_final, Cert.ReferenceIdeal.Val.unit_final,
    Cert.ReferenceIdeal.Val.cos_final⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation: nothing to preserve. -/
theorem preserves : Cert.preserves_Kernel_KernelIdeal := trivial

/-- Both programs end with the result at the edge scores of their arguments, the same function on both sides;
    the arguments agree, so the results do. -/
theorem algebraic : Cert.algebraic_KernelIdeal_ReferenceIdeal := by
  intro m ρ m' ρ' _ hagree
  refine ⟨fun c => Cert.KernelIdeal.Gen.W7 m ρ c (Proc.devRef .tc Cert.KernelIdeal.main_v6),
    Cert.KernelIdeal.Val.run_result (F := Ideal) m ρ, ?_⟩
  refine (θ_run Cert.ReferenceIdeal.defs _ _).mono (fun r h c => ⟨(h c).1.trans ?_, (h c).2⟩)
    (Cert.ReferenceIdeal.Val.run_result (F := Ideal) m' ρ')
  show Cert.ReferenceIdeal.Gen.W7 m' ρ' c (Proc.devRef .tc Cert.ReferenceIdeal.main_v6)
    = Cert.KernelIdeal.Gen.W7 m ρ c (Proc.devRef .tc Cert.KernelIdeal.main_v6)
  rw [Cert.ReferenceIdeal.Val.result_eq m' ρ' c referenceFinals, Cert.KernelIdeal.Val.result_eq m ρ c kernelFinals,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
